-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x128 : Shape := ⟨2, ![1024, 128]⟩
abbrev S1024x1 : Shape := ⟨2, ![1024, 1]⟩
abbrev S1x1024 : Shape := ⟨2, ![1, 1024]⟩
abbrev S1x2 : Shape := ⟨2, ![1, 2]⟩
abbrev S128x1024 : Shape := ⟨2, ![128, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | .local _ .vmem, ⟨9, _⟩ => ⟨S1x2, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v53 : BitVec 1 := Scalar.cmpi .eq arg0 c7_i32
  let arg1 : BitVec 32 := BitVec.ofNat 32 (i 1).val
  let c7_i32_25 : BitVec 32 := 7#32
  let v54 : BitVec 1 := Scalar.cmpi .eq arg1 c7_i32_25
  let v55 : BitVec 1 := Scalar.andi v53 v54
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  reduces_S1024x128_S1024 : S1024x128.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  reduces_S1024x1_S1 : S1024x1.Reduces [0] S1
  shapeCasts_S1_S1x1 : S1.ShapeCasts S1x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  inb_S1x1_S1x1_0_0 : ∀ a, (![0, 0] : Fin 2 → Nat) a + S1x1.size a ≤ S1x1.size a
  shapeCasts_S1x1_S_ : S1x1.ShapeCasts S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S128x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Runs.lean ====
/-
  What the three runs of the kernel body share.  The body branches twice on the grid point: it zeroes the two-cell
  accumulator at the first point only, and it forms the loss from the accumulator and stores it into the result block
  at the last point only.  Both conditions are decided over the 64 points in closed form.  The result window is idle
  (and not written back) wherever the second condition fails.  Each of the four input windows holds, at every point,
  the block of its array that its index map selects, whether the point fetches it or not.
-/
import proofs.«166508_j35665408426430_1_alg».proof.Proof.Gen.Kernel.Launch
import proofs.«166508_j35665408426430_1_alg».proof.Proof.Gen.Kernel.Skeleton
import proofs.«166508_j35665408426430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition from the grid coordinates: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch's condition: both coordinates are seven. -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the second condition fails the result window is idle: nothing is stored into it, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The memrefs the body is called with -/

abbrev VO0_4 : View sig .tc .vmem S1x1 .f32 := (Memref.whole cc0_stg4_0 : Memref sig .tc .vmem S1x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The two-cell accumulator: a whole scoped buffer of the kernel's own, carried from point to point. -/
abbrev scM0_0 : Memref sig .tc .vmem S1x2 .f32 := Memref.whole cc0_scratch0
abbrev VS0_0 : View sig .tc .vmem S1x2 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The windows' blocks, read off the arrays as the region finds them -/

section Blocks
variable (V : (c : Dev nD) → (b : Ref sig .tc) → Buf (Elt F) ((c : Thread nD τ).loc b))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

end Cert.Kernel.Hand

end
-- ==== Proof.K.RunA.lean ====
/-
  The kernel body at the FIRST grid point (the accumulator is zeroed first; the loss is not formed): the two-cell
  accumulator, handed over at any contents, ends with three stores — zero into both cells, then each cell's update —;
  the four input buffers and the idle result buffer come back as they were.
-/
import proofs.«166508_j35665408426430_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i)
    (x0 : Vec F S1024x128 .f32) (x1 : Vec F S1024x128 .f32) (l0 : Vec F S1024x1 .i32) (l1 : Vec F S1x1024 .i32) :
    { LS0 : List (View.Piece (Elt F) S1x2 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The kernel body at a MIDDLE grid point (neither branch taken): the accumulator, handed over at what the point before
  left, ends with its two cells updated; the four input buffers and the idle result buffer come back as they were.
-/
import proofs.«166508_j35665408426430_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i)
    (x0 : Vec F S1024x128 .f32) (x1 : Vec F S1024x128 .f32) (l0 : Vec F S1024x1 .i32) (l1 : Vec F S1x1024 .i32) (xs0 : Vec F S1x2 .f32) :
    { LS0 : List (View.Piece (Elt F) S1x2 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The kernel body at the LAST grid point (the accumulator is not zeroed; the loss is formed): the accumulator, handed
  over at what the point before left, ends with its two cells updated, and the result buffer, handed over at any
  contents, ends with one store of the loss computed from the two updated cells.
-/
import proofs.«166508_j35665408426430_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i)
    (x0 : Vec F S1024x128 .f32) (x1 : Vec F S1024x128 .f32) (l0 : Vec F S1024x1 .i32) (l1 : Vec F S1x1024 .i32) (xs0 : Vec F S1x2 .f32) :
    Σ' (L4 : List (View.Piece (Elt F) S1x1 .f32)), { LS0 : List (View.Piece (Elt F) S1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare l0 ∗ owns (c : Thread nD τ) arg5 fullShare l1 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Data.lean ====
/-
  The proof data of the one pipeline, and the body obligation at every grid point.

  The two-cell accumulator after point `n` (`accAt`): at the first point what the first run leaves from any start; at a
  later point what the middle (or last) run leaves from what point `n − 1` left.  The result block after the last point
  (`outAt`) is what the last run stores from the accumulator of point 62.  The region invariant before point `n`: the
  accumulator at anything before the first point, at `accAt (n − 1)` afterwards, beside the generator register.  The
  two windows that read the first argument array each hold half of it.
-/
import proofs.«166508_j35665408426430_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each run leaves -/

theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec F S1024x128 .f32) (x1 : Vec F S1024x128 .f32) (l0 : Vec F S1024x1 .i32) (l1 : Vec F S1x1024 .i32) (y : S1x2.Idx) :
    ∃ pc ∈ (kernelRun0_A c i arg2 harg2 arg3 harg3 arg4 harg4 arg5 harg5 arg6 harg6 arg7 harg7 hc0 hc1 x0 x1 l0 l1).1, y ∈ pc.1.set :=
  View.cover_of_tiledL (kernelRun0_A c i arg2 harg2 arg3 harg3 arg4 harg4 arg5 harg5 arg6 harg6 arg7 harg7 hc0 hc1 x0 x1 l0 l1).1 S1x1.size (by sl_kernel_rfl) y
/-- What the first run leaves in the accumulator. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec F S1024x128 .f32) (x1 : Vec F S1024x128 .f32) (l0 : Vec F S1024x1 .i32) (l1 : Vec F S1x1024 .i32) : Vec F S1x2 .f32 :=
  VS0_0.read (Elt F) (VS0_0.writes (Elt F) VS0_0.junk (kernelRun0_A c i arg2 harg2 arg3 harg3 arg4 harg4 arg5 harg5 arg6 harg6 arg7 harg7 hc0 hc1 x0 x1 l0 l1).1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec F S1024x128 .f32) (x1 : Vec F S1024x128 .f32) (l0 : Vec F S1024x1 .i32) (l1 : Vec F S1x1024 .i32) (xs0 : Vec F S1x2 .f32) (y : S1x2.Idx) :
    ∃ pc ∈ (kernelRun0_B c i arg2 harg2 arg3 harg3 arg4 harg4 arg5 harg5 arg6 harg6 arg7 harg7 hc0 hc1 x0 x1 l0 l1 xs0).1, y ∈ pc.1.set :=
  View.cover_of_tiledL (kernelRun0_B c i arg2 harg2 arg3 harg3 arg4 harg4 arg5 harg5 arg6 harg6 arg7 harg7 hc0 hc1 x0 x1 l0 l1 xs0).1 S1x1.size (by sl_kernel_rfl) y
/-- What a middle run leaves in the accumulator. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec F S1024x128 .f32) (x1 : Vec F S1024x128 .f32) (l0 : Vec F S1024x1 .i32) (l1 : Vec F S1x1024 .i32) (xs0 : Vec F S1x2 .f32) : Vec F S1x2 .f32 :=
  VS0_0.read (Elt F) (VS0_0.writes (Elt F) VS0_0.junk (kernelRun0_B c i arg2 harg2 arg3 harg3 arg4 harg4 arg5 harg5 arg6 harg6 arg7 harg7 hc0 hc1 x0 x1 l0 l1 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) (y : S1x2.Idx) :
    ∃ pc ∈ (kernelRun0_C c i arg2 harg2 arg3 harg3 arg4 harg4 arg5 harg5 arg6 harg6 arg7 harg7 hc0 hc1 x0 x1 l0 l1 xs0).2.1, y ∈ pc.1.set :=
  View.cover_of_tiledL (kernelRun0_C c i arg2 harg2 arg3 harg3 arg4 harg4 arg5 harg5 arg6 harg6 arg7 harg7 hc0 hc1 x0 x1 l0 l1 xs0).2.1 S1x1.size (by sl_kernel_rfl) y
/-- What the last run leaves in the accumulator. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) : Vec F S1x2 .f32 :=
  VS0_0.read (Elt F) (VS0_0.writes (Elt F) VS0_0.junk (kernelRun0_C c i arg2 harg2 arg3 harg3 arg4 harg4 arg5 harg5 arg6 harg6 arg7 harg7 hc0 hc1 x0 x1 l0 l1 xs0).2.1)
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) (y : S1x1.Idx) :
    ∃ pc ∈ (kernelRun0_C c i arg2 harg2 arg3 harg3 arg4 harg4 arg5 harg5 arg6 harg6 arg7 harg7 hc0 hc1 x0 x1 l0 l1 xs0).1, y ∈ pc.1.set :=
  View.cover_of_tiledL (kernelRun0_C c i arg2 harg2 arg3 harg3 arg4 harg4 arg5 harg5 arg6 harg6 arg7 harg7 hc0 hc1 x0 x1 l0 l1 xs0).1 S1x1.size (by sl_kernel_rfl) y
/-- What the last run leaves in the result block. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) : Vec F S1x1 .f32 :=
  VO0_4.read (Elt F) (VO0_4.writes (Elt F) VO0_4.junk (kernelRun0_C c i arg2 harg2 arg3 harg3 arg4 harg4 arg5 harg5 arg6 harg6 arg7 harg7 hc0 hc1 x0 x1 l0 l1 xs0).1)

section Region
variable (V : (c : Dev nD) → (b : Ref sig .tc) → Buf (Elt F) ((c : Thread nD τ).loc b))

theorem lt64 {n : ℕ} (hn : n < cfg0.N) : n < 64 := lt_of_lt_of_eq hn N_0
theorem not_c0 (t : Fin cfg0.N) (h : t.val ≠ 0) : ¬cond0_0 (grid0.coords t) := fun hc => by
  have h1 := (hcond0_0 t).mp hc; have h2 := lt64 t.isLt; omega
theorem not_c1 (t : Fin cfg0.N) (h : t.val ≠ 63) : ¬cond0_1 (grid0.coords t) := fun hc => by
  have h1 := (hcond0_1 t).mp hc; have h2 := lt64 t.isLt; omega
theorem is_c0 (t : Fin cfg0.N) (h : t.val = 0) : cond0_0 (grid0.coords t) := (hcond0_0 t).mpr (by omega)
theorem is_c1 (t : Fin cfg0.N) (h : t.val = 63) : cond0_1 (grid0.coords t) := (hcond0_1 t).mpr (by omega)

/-- THE ACCUMULATION: the accumulator after the body at position `n`. -/
def accAt (c : Dev nD) : (n : ℕ) → n < cfg0.N → Vec F S1x2 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (is_c0 ⟨0, hn⟩ rfl) (not_c1 ⟨0, hn⟩ (by show (0 : ℕ) ≠ 63; omega)) (iblk V c 0 ⟨0, hn⟩) (iblk V c 1 ⟨0, hn⟩) (iblk V c 2 ⟨0, hn⟩) (iblk V c 3 ⟨0, hn⟩)
  | n + 1, hn =>
    if h1 : n + 1 = 63 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (not_c0 ⟨n + 1, hn⟩ (Nat.succ_ne_zero n)) (is_c1 ⟨n + 1, hn⟩ h1) (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (not_c0 ⟨n + 1, hn⟩ (Nat.succ_ne_zero n)) (not_c1 ⟨n + 1, hn⟩ h1) (iblk V c 0 ⟨n + 1, hn⟩) (iblk V c 1 ⟨n + 1, hn⟩) (iblk V c 2 ⟨n + 1, hn⟩) (iblk V c 3 ⟨n + 1, hn⟩) (accAt c n (Nat.lt_of_succ_lt hn))

theorem accAt_A (c : Dev nD) (t : Fin cfg0.N) (h0 : t.val = 0) :
    accAt V c t.val t.isLt = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (is_c0 t h0) (not_c1 t (by omega)) (iblk V c 0 t) (iblk V c 1 t) (iblk V c 2 t) (iblk V c 3 t) := by
  obtain ⟨n, hn⟩ := t
  cases n with
  | zero => rfl
  | succ n => exact absurd h0 (Nat.succ_ne_zero n)
theorem accAt_B (c : Dev nD) (t : Fin cfg0.N) (h0 : t.val ≠ 0) (h1 : t.val ≠ 63) :
    accAt V c t.val t.isLt = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t h0) (not_c1 t h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact absurd rfl h0
  | succ n => exact (dif_neg h1).trans rfl
theorem accAt_C (c : Dev nD) (t : Fin cfg0.N) (h0 : t.val ≠ 0) (h1 : t.val = 63) :
    accAt V c t.val t.isLt = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t h0) (is_c1 t h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact absurd rfl h0
  | succ n => exact (dif_pos h1).trans rfl

/-- The result block after the body at point `t`: at the last point what the last run stores; elsewhere the window is
    idle and this value is never consulted. -/
def outAt (c : Dev nD) (t : Fin cfg0.N) : Vec F S1x1 .f32 :=
  if h1 : t.val = 63 then
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t (by omega)) (is_c1 t h1) (iblk V c 0 t) (iblk V c 1 t) (iblk V c 2 t) (iblk V c 3 t) (accAt V c (t.val - 1) (Nat.lt_of_le_of_lt (Nat.sub_le _ _) t.isLt))
  else VO0_4.read (Elt F) VO0_4.junk

theorem outAt_C (c : Dev nD) (t : Fin cfg0.N) (h1 : t.val = 63) :
    outAt V c t = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t (by omega)) (is_c1 t h1) (iblk V c 0 t) (iblk V c 1 t) (iblk V c 2 t) (iblk V c 3 t) (accAt V c (t.val - 1) (Nat.lt_of_le_of_lt (Nat.sub_le _ _) t.isLt)) :=
  dif_pos h1

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare (accAt V c n hn)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt V c n hn)) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt V c (n - 1) (by omega))) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = outAt V c t := by dsimp only [dat0]
theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d

end Region

end Cert.Kernel.Hand

end
-- ==== Proof.K.Body.lean ====
/-
  The body obligation at every grid point.  The closed forms say which of the three runs a point takes; the invariant
  hands the run the accumulator (at anything at the first point, at what the point before left afterwards) and takes it
  back at this point's contents; the four input buffers hold their blocks and come back unchanged; the result buffer is
  handed back untouched except at the last point, where it comes back holding the loss.
-/
import proofs.«166508_j35665408426430_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val = 0
  · have h1 : t.val ≠ 63 := by omega
    rw [Dat.leavesExact_idle (dat0 V c) 4 t (idleAt0_4 t (not_c1 t h1)) (noFlush0_4 t (not_c1 t h1))]
    rw [accAt_A V c t h0]
    unfold sout0_A_0; (try dsimp only)
    rw [PhiS_castSucc V c t, PhiS_zero V c _ _ h0, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (is_c0 t h0) (not_c1 t h1) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat0 V c).leavesExact 4 t = owns (c : Thread nD τ) (ms0_4 t) fullShare ((dat0 V c).after 4 t) from by
        unfold Dat.leavesExact; rw [liveAt0_4 t (is_c1 t h1)], after0_4]
      rw [accAt_C V c t h0 h1, outAt_C V c t h1]
      unfold out0_C_4 sout0_C_0; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (not_c0 t h0) (is_c1 t h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (not_c1 t h1)) (noFlush0_4 t (not_c1 t h1))]
      rw [accAt_B V c t h0 h1]
      unfold sout0_B_0; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (not_c0 t h0) (not_c1 t h1) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨HS0, Hg⟩
  isplitl [HS0]
  · iexists _; iexact HS0
  iexact Hg

end Region

end Cert.Kernel.Hand

end
-- ==== Proof.K.Region.lean ====
/-
  The run of the whole program: two reshapes of the label vector on the host, the one kernel region, one reshape of
  the kernel's [1,1] result into the scalar result.

  The thread state between segments is "every unscoped buffer whole at the boundary's contents, the generator register
  at some state, nothing owed".  At the region's entry the first argument array, which two windows read, is split into
  two half shares, one per window; at the exit both windows hand their halves back at the unchanged contents and the
  halves are joined.  The region changes one buffer only: the kernel's result, which ends at what the last grid point
  wrote back.
-/
import proofs.«166508_j35665408426430_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the two reshapes of the labels: the region's entry. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- At the region's exit: the result buffer at what the write-backs leave, every other buffer as entered. -/
def W2 (c : Dev nD) : Valuation τ sig (Elt F) :=
  Function.update (W1 m ρ c) (Proc.devRef .tc main_v2) ((dat0 (V1 m ρ) c).arrAt 4 cfg0.N)
/-- After the last reshape: the return. -/
def W3 (c : Dev nD) : Valuation τ sig (Elt F) := StableHlo.after hostOps1 (W2 m ρ c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The unscoped buffers one by one; the arrays window by window -/

/-- The six unscoped buffers, each whole at the valuation's contents. -/
theorem held_eq (c : Dev nD) (W : Valuation τ sig (Elt F)) :
    (StableHlo.held (c : Thread nD τ) (Pipeline.ucRefs τ sig) W : sProp 𝕄)
      = iprop(((((c : Thread nD τ)).1, Proc.devRef .tc main_arg0) ↦{fullShare} W (Proc.devRef .tc main_arg0))
        ∗ ((((c : Thread nD τ)).1, Proc.devRef .tc main_arg1) ↦{fullShare} W (Proc.devRef .tc main_arg1))
        ∗ ((((c : Thread nD τ)).1, Proc.devRef .tc main_v0) ↦{fullShare} W (Proc.devRef .tc main_v0))
        ∗ ((((c : Thread nD τ)).1, Proc.devRef .tc main_v1) ↦{fullShare} W (Proc.devRef .tc main_v1))
        ∗ ((((c : Thread nD τ)).1, Proc.devRef .tc main_v2) ↦{fullShare} W (Proc.devRef .tc main_v2))
        ∗ ((((c : Thread nD τ)).1, Proc.devRef .tc main_v3) ↦{fullShare} W (Proc.devRef .tc main_v3))) := by
  unfold StableHlo.held
  exact BI.bigSep_eq_bigSepL_of_eq [Proc.devRef .tc main_arg0, Proc.devRef .tc main_arg1, Proc.devRef .tc main_v0, Proc.devRef .tc main_v1, Proc.devRef .tc main_v2, Proc.devRef .tc main_v3] (by decide) (by decide) _

section Arr
variable (V : (c : Dev nD) → (b : Ref sig .tc) → Buf (Elt F) ((c : Thread nD τ).loc b))

/-- The pipeline's arrays window by window: the first argument array at a half share for each of its two windows, the
    two label arrays and the result whole. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0)
        ∗ (((c : Thread nD τ).loc main_arg0) ↦{fullShare.right} G 1)
        ∗ (((c : Thread nD τ).loc main_v0) ↦{fullShare} G 2)
        ∗ (((c : Thread nD τ).loc main_v1) ↦{fullShare} G 3)
        ∗ (((c : Thread nD τ).loc main_v2) ↦{fullShare} G 4)) := by
  have h : ((dat0 V c).arrays G : sProp 𝕄)
      = bigSep Finset.univ fun w : Fin cfg0.W => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

end Arr

end Cert.Kernel.Hand

end
-- ==== Proof.K.Seg.lean ====
/-
  The kernel region as a segment between thread states, the two host stretches, and the launch.
-/
import proofs.«166508_j35665408426430_1_alg».proof.Proof.K.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_v2 (c : Dev nD) : W2 m ρ c (Proc.devRef .tc main_v2) = (dat0 (V1 m ρ) c).arrAt 4 cfg0.N := by
  unfold W2; exact Function.update_self _ _ _
theorem W2_of_ne (c : Dev nD) (b : DevRef τ sig) (hb : b ≠ Proc.devRef .tc main_v2) : W2 m ρ c b = W1 m ρ c b := by
  unfold W2; exact Function.update_of_ne hb _ _

section Arr
variable (V : (c : Dev nD) → (b : Ref sig .tc) → Buf (Elt F) ((c : Thread nD τ).loc b))
/-- An input window's array is never written: it ends as entered. -/
theorem arrN_0 (c : Dev nD) : (dat0 V c).arrAt 0 cfg0.N = V c main_arg0 := ((dat0 V c).arrAt_in 0 rfl _).trans (A_eq V c 0)
theorem arrN_1 (c : Dev nD) : (dat0 V c).arrAt 1 cfg0.N = V c main_arg0 := ((dat0 V c).arrAt_in 1 rfl _).trans (A_eq V c 1)
theorem arrN_2 (c : Dev nD) : (dat0 V c).arrAt 2 cfg0.N = V c main_v0 := ((dat0 V c).arrAt_in 2 rfl _).trans (A_eq V c 2)
theorem arrN_3 (c : Dev nD) : (dat0 V c).arrAt 3 cfg0.N = V c main_v1 := ((dat0 V c).arrAt_in 3 rfl _).trans (A_eq V c 3)
end Arr

/-- ENTRY: the six unscoped buffers are the five windows' arrays — the first argument array split in two halves — and
    the two buffers that bypass the region. -/
theorem entry_core (c : Dev nD) :
    (StableHlo.held (c : Thread nD τ) (Pipeline.ucRefs τ sig) (W1 m ρ c) : sProp 𝕄)
      ⊢ iprop((dat0 (V1 m ρ) c).arrays ((dat0 (V1 m ρ) c).arrAt · 0) ∗ Pipeline.unscopedRest (Ix := Unit) (Name := ℕ) (U := UR sig nD τ) (Lvl := ℕ) spec0 c (V1 m ρ c)) := by
  rw [held_eq, arrays_eq0, unscopedRest0_eq]
  iintro ⟨H0, H1, H2, H3, H4, H5⟩
  ihave Hs := (pointsTo_share (PosShare.mem_left_op_right fullShare)).1 $$ H0
  icases Hs with ⟨Hl, Hr⟩
  isplitl [Hl Hr H2 H3 H4]
  · isplitl [Hl]; · iexact Hl
    isplitl [Hr]; · iexact Hr
    isplitl [H2]; · iexact H2
    isplitl [H3]; · iexact H3
    iexact H4
  isplitl [H1]; · iexact H1
  iexact H5

/-- EXIT: the halves of the first argument array come back at the unchanged contents and are joined; the result buffer
    comes back at what the write-backs left. -/
theorem exit_core (c : Dev nD) :
    iprop((dat0 (V1 m ρ) c).arrays ((dat0 (V1 m ρ) c).arrAt · cfg0.N) ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [held_eq, arrays_eq0, unscopedRest0_eq]
  rw [W2_v2, W2_of_ne m ρ c (Proc.devRef .tc main_arg0) (by decide), W2_of_ne m ρ c (Proc.devRef .tc main_arg1) (by decide),
    W2_of_ne m ρ c (Proc.devRef .tc main_v0) (by decide), W2_of_ne m ρ c (Proc.devRef .tc main_v1) (by decide),
    W2_of_ne m ρ c (Proc.devRef .tc main_v3) (by decide)]
  dsimp only
  rw [arrN_0, arrN_1, arrN_2, arrN_3]
  iintro ⟨⟨Hl, Hr, H2, H3, H4⟩, H1, H5⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  iexact H5

/-! ## The host stretches read over any valuation -/

theorem after0_arg0 (W : Valuation τ sig (Elt F)) :
    StableHlo.after (hostOps0 (F := F)) W (Proc.devRef .tc main_arg0) = W (Proc.devRef .tc main_arg0) := by
  after_results_simp <;> rfl
theorem after0_arg1 (W : Valuation τ sig (Elt F)) :
    StableHlo.after (hostOps0 (F := F)) W (Proc.devRef .tc main_arg1) = W (Proc.devRef .tc main_arg1) := by
  after_results_simp <;> rfl
theorem after0_v0 (W : Valuation τ sig (Elt F)) :
    StableHlo.after (hostOps0 (F := F)) W (Proc.devRef .tc main_v0) = shapeCast S8192x1 (W (Proc.devRef .tc main_arg1)) shapeCasts_S8192_S8192x1 := by
  after_results_simp <;> rfl
theorem after0_v1 (W : Valuation τ sig (Elt F)) :
    StableHlo.after (hostOps0 (F := F)) W (Proc.devRef .tc main_v1) = shapeCast S1x8192 (W (Proc.devRef .tc main_arg1)) shapeCasts_S8192_S1x8192 := by
  after_results_simp <;> rfl
theorem after1_arg0 (W : Valuation τ sig (Elt F)) :
    StableHlo.after (hostOps1 (F := F)) W (Proc.devRef .tc main_arg0) = W (Proc.devRef .tc main_arg0) := by
  after_results_simp <;> rfl
theorem after1_arg1 (W : Valuation τ sig (Elt F)) :
    StableHlo.after (hostOps1 (F := F)) W (Proc.devRef .tc main_arg1) = W (Proc.devRef .tc main_arg1) := by
  after_results_simp <;> rfl
theorem after1_v3 (W : Valuation τ sig (Elt F)) :
    StableHlo.after (hostOps1 (F := F)) W (Proc.devRef .tc main_v3) = shapeCast S_ (W (Proc.devRef .tc main_v2)) shapeCasts_S1x1_S_ := by
  after_results_simp <;> rfl

/-- The region's entry contents, buffer by buffer. -/
theorem V1_arg0 (c : Dev nD) : V1 m ρ c main_arg0 = m ((c : Thread nD τ).loc main_arg0) := by
  show W1 m ρ c (Proc.devRef .tc main_arg0) = _; unfold W1; exact after0_arg0 _
theorem V1_v0 (c : Dev nD) : V1 m ρ c main_v0 = shapeCast S8192x1 (m ((c : Thread nD τ).loc main_arg1)) shapeCasts_S8192_S8192x1 := by
  show W1 m ρ c (Proc.devRef .tc main_v0) = _; unfold W1; exact after0_v0 _
theorem V1_v1 (c : Dev nD) : V1 m ρ c main_v1 = shapeCast S1x8192 (m ((c : Thread nD τ).loc main_arg1)) shapeCasts_S8192_S1x8192 := by
  show W1 m ρ c (Proc.devRef .tc main_v1) = _; unfold W1; exact after0_v1 _

/-- The arguments end as launched, and the scalar result is the kernel's [1,1] result re-laid. -/
theorem W3_arg0 (c : Dev nD) : W3 m ρ c (Proc.devRef .tc main_arg0) = m ((c : Thread nD τ).loc main_arg0) := by
  unfold W3; rw [after1_arg0, W2_of_ne m ρ c _ (by decide)]; unfold W1; exact after0_arg0 _
theorem W3_arg1 (c : Dev nD) : W3 m ρ c (Proc.devRef .tc main_arg1) = m ((c : Thread nD τ).loc main_arg1) := by
  unfold W3; rw [after1_arg1, W2_of_ne m ρ c _ (by decide)]; unfold W1; exact after0_arg1 _
theorem W3_v3 (c : Dev nD) : W3 m ρ c (Proc.devRef .tc main_v3) = shapeCast S_ ((dat0 (V1 m ρ) c).arrAt 4 cfg0.N) shapeCasts_S1x1_S_ := by
  unfold W3; rw [after1_v3, W2_v2]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have he := entry_core m ρ c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 0).pre c (fun _ => fullShare) (adm (F := F) 0).1 ∗ Pipeline.scopedRest spec0 c) ⊢ (Pipeline.ΦA spec0 c : sProp 𝕄) from by
      unfold Pipeline.ΦA
      iintro ⟨Hp, -, Hr⟩
      isplitl [Hr]; · iexact Hr
      iexact Hp).trans (hin0 (V1 m ρ) c)
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hx := exit_core m ρ c
    iintro ⟨Ha, HO, HY, Hrest⟩
    imodintro
    isplitl [Ha Hrest]
    · iapply hx
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: every weakly fair execution of the program terminates, nothing faulting; the scalar result ends at the
    kernel's [1,1] result block — what the last grid point wrote back — re-laid as a scalar, and the two argument
    arrays end as launched. -/
theorem run_main : θ_run defs (onTc (τ := τ) (main (F := F))) ⟨m, fun _ => 0, ρ⟩ (fun r => ∀ c : Dev nD,
      r.2.mem ((c.tc : Thread nD τ).loc main_v3) = shapeCast S_ ((dat0 (V1 m ρ) c).arrAt 4 cfg0.N) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_v3 m ρ c),
       (h c _ (mem_uc main_arg0 (by decide))).trans (W3_arg0 m ρ c),
       (h c _ (mem_uc main_arg1 (by decide))).trans (W3_arg1 m ρ c)⟩)

end Cert.Kernel.Hand

end
-- ==== Proof.KI.Runs.lean ====
/-
  What the three runs of the kernel body share.  The body branches twice on the grid point: it zeroes the two-cell
  accumulator at the first point only, and it forms the loss from the accumulator and stores it into the result block
  at the last point only.  Both conditions are decided over the 64 points in closed form.  The result window is idle
  (and not written back) wherever the second condition fails.  Each of the four input windows holds, at every point,
  the block of its array that its index map selects, whether the point fetches it or not.
-/
import proofs.«166508_j35665408426430_1_alg».proof.Proof.Gen.KernelIdeal.Launch
import proofs.«166508_j35665408426430_1_alg».proof.Proof.Gen.KernelIdeal.Skeleton
import proofs.«166508_j35665408426430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition from the grid coordinates: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch's condition: both coordinates are seven. -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the second condition fails the result window is idle: nothing is stored into it, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The memrefs the body is called with -/

abbrev VO0_4 : View sig .tc .vmem S1x1 .f32 := (Memref.whole cc0_stg4_0 : Memref sig .tc .vmem S1x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The two-cell accumulator: a whole scoped buffer of the kernel's own, carried from point to point. -/
abbrev scM0_0 : Memref sig .tc .vmem S1x2 .f32 := Memref.whole cc0_scratch0
abbrev VS0_0 : View sig .tc .vmem S1x2 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The windows' blocks, read off the arrays as the region finds them -/

section Blocks
variable (V : (c : Dev nD) → (b : Ref sig .tc) → Buf (Elt F) ((c : Thread nD τ).loc b))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

end Cert.KernelIdeal.Hand

end
-- ==== Proof.KI.RunA.lean ====
/-
  The kernel body at the FIRST grid point (the accumulator is zeroed first; the loss is not formed): the two-cell
  accumulator, handed over at any contents, ends with three stores — zero into both cells, then each cell's update —;
  the four input buffers and the idle result buffer come back as they were.
-/
import proofs.«166508_j35665408426430_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i)
    (x0 : Vec F S1024x128 .f32) (x1 : Vec F S1024x128 .f32) (l0 : Vec F S1024x1 .i32) (l1 : Vec F S1x1024 .i32) :
    { LS0 : List (View.Piece (Elt F) S1x2 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The kernel body at a MIDDLE grid point (neither branch taken): the accumulator, handed over at what the point before
  left, ends with its two cells updated; the four input buffers and the idle result buffer come back as they were.
-/
import proofs.«166508_j35665408426430_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i)
    (x0 : Vec F S1024x128 .f32) (x1 : Vec F S1024x128 .f32) (l0 : Vec F S1024x1 .i32) (l1 : Vec F S1x1024 .i32) (xs0 : Vec F S1x2 .f32) :
    { LS0 : List (View.Piece (Elt F) S1x2 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare l0 ∗ owns (c : Thread nD τ) arg5 fullShare l1 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The kernel body at the LAST grid point (the accumulator is not zeroed; the loss is formed): the accumulator, handed
  over at what the point before left, ends with its two cells updated, and the result buffer, handed over at any
  contents, ends with one store of the loss computed from the two updated cells.
-/
import proofs.«166508_j35665408426430_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i)
    (x0 : Vec F S1024x128 .f32) (x1 : Vec F S1024x128 .f32) (l0 : Vec F S1024x1 .i32) (l1 : Vec F S1x1024 .i32) (xs0 : Vec F S1x2 .f32) :
    Σ' (L4 : List (View.Piece (Elt F) S1x1 .f32)), { LS0 : List (View.Piece (Elt F) S1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare l0 ∗ owns (c : Thread nD τ) arg5 fullShare l1 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Data.lean ====
/-
  The proof data of the one pipeline, and the body obligation at every grid point.

  The two-cell accumulator after point `n` (`accAt`): at the first point what the first run leaves from any start; at a
  later point what the middle (or last) run leaves from what point `n − 1` left.  The result block after the last point
  (`outAt`) is what the last run stores from the accumulator of point 62.  The region invariant before point `n`: the
  accumulator at anything before the first point, at `accAt (n − 1)` afterwards, beside the generator register.  The
  two windows that read the first argument array each hold half of it.
-/
import proofs.«166508_j35665408426430_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each run leaves -/

theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec F S1024x128 .f32) (x1 : Vec F S1024x128 .f32) (l0 : Vec F S1024x1 .i32) (l1 : Vec F S1x1024 .i32) (y : S1x2.Idx) :
    ∃ pc ∈ (kernelRun0_A c i arg2 harg2 arg3 harg3 arg4 harg4 arg5 harg5 arg6 harg6 arg7 harg7 hc0 hc1 x0 x1 l0 l1).1, y ∈ pc.1.set :=
  View.cover_of_tiledL (kernelRun0_A c i arg2 harg2 arg3 harg3 arg4 harg4 arg5 harg5 arg6 harg6 arg7 harg7 hc0 hc1 x0 x1 l0 l1).1 S1x1.size (by sl_kernel_rfl) y
/-- What the first run leaves in the accumulator. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec F S1024x128 .f32) (x1 : Vec F S1024x128 .f32) (l0 : Vec F S1024x1 .i32) (l1 : Vec F S1x1024 .i32) : Vec F S1x2 .f32 :=
  VS0_0.read (Elt F) (VS0_0.writes (Elt F) VS0_0.junk (kernelRun0_A c i arg2 harg2 arg3 harg3 arg4 harg4 arg5 harg5 arg6 harg6 arg7 harg7 hc0 hc1 x0 x1 l0 l1).1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec F S1024x128 .f32) (x1 : Vec F S1024x128 .f32) (l0 : Vec F S1024x1 .i32) (l1 : Vec F S1x1024 .i32) (xs0 : Vec F S1x2 .f32) (y : S1x2.Idx) :
    ∃ pc ∈ (kernelRun0_B c i arg2 harg2 arg3 harg3 arg4 harg4 arg5 harg5 arg6 harg6 arg7 harg7 hc0 hc1 x0 x1 l0 l1 xs0).1, y ∈ pc.1.set :=
  View.cover_of_tiledL (kernelRun0_B c i arg2 harg2 arg3 harg3 arg4 harg4 arg5 harg5 arg6 harg6 arg7 harg7 hc0 hc1 x0 x1 l0 l1 xs0).1 S1x1.size (by sl_kernel_rfl) y
/-- What a middle run leaves in the accumulator. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec F S1024x128 .f32) (x1 : Vec F S1024x128 .f32) (l0 : Vec F S1024x1 .i32) (l1 : Vec F S1x1024 .i32) (xs0 : Vec F S1x2 .f32) : Vec F S1x2 .f32 :=
  VS0_0.read (Elt F) (VS0_0.writes (Elt F) VS0_0.junk (kernelRun0_B c i arg2 harg2 arg3 harg3 arg4 harg4 arg5 harg5 arg6 harg6 arg7 harg7 hc0 hc1 x0 x1 l0 l1 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) (y : S1x2.Idx) :
    ∃ pc ∈ (kernelRun0_C c i arg2 harg2 arg3 harg3 arg4 harg4 arg5 harg5 arg6 harg6 arg7 harg7 hc0 hc1 x0 x1 l0 l1 xs0).2.1, y ∈ pc.1.set :=
  View.cover_of_tiledL (kernelRun0_C c i arg2 harg2 arg3 harg3 arg4 harg4 arg5 harg5 arg6 harg6 arg7 harg7 hc0 hc1 x0 x1 l0 l1 xs0).2.1 S1x1.size (by sl_kernel_rfl) y
/-- What the last run leaves in the accumulator. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) : Vec F S1x2 .f32 :=
  VS0_0.read (Elt F) (VS0_0.writes (Elt F) VS0_0.junk (kernelRun0_C c i arg2 harg2 arg3 harg3 arg4 harg4 arg5 harg5 arg6 harg6 arg7 harg7 hc0 hc1 x0 x1 l0 l1 xs0).2.1)
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) (y : S1x1.Idx) :
    ∃ pc ∈ (kernelRun0_C c i arg2 harg2 arg3 harg3 arg4 harg4 arg5 harg5 arg6 harg6 arg7 harg7 hc0 hc1 x0 x1 l0 l1 xs0).1, y ∈ pc.1.set :=
  View.cover_of_tiledL (kernelRun0_C c i arg2 harg2 arg3 harg3 arg4 harg4 arg5 harg5 arg6 harg6 arg7 harg7 hc0 hc1 x0 x1 l0 l1 xs0).1 S1x1.size (by sl_kernel_rfl) y
/-- What the last run leaves in the result block. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) : Vec F S1x1 .f32 :=
  VO0_4.read (Elt F) (VO0_4.writes (Elt F) VO0_4.junk (kernelRun0_C c i arg2 harg2 arg3 harg3 arg4 harg4 arg5 harg5 arg6 harg6 arg7 harg7 hc0 hc1 x0 x1 l0 l1 xs0).1)

section Region
variable (V : (c : Dev nD) → (b : Ref sig .tc) → Buf (Elt F) ((c : Thread nD τ).loc b))

theorem lt64 {n : ℕ} (hn : n < cfg0.N) : n < 64 := lt_of_lt_of_eq hn N_0
theorem not_c0 (t : Fin cfg0.N) (h : t.val ≠ 0) : ¬cond0_0 (grid0.coords t) := fun hc => by
  have h1 := (hcond0_0 t).mp hc; have h2 := lt64 t.isLt; omega
theorem not_c1 (t : Fin cfg0.N) (h : t.val ≠ 63) : ¬cond0_1 (grid0.coords t) := fun hc => by
  have h1 := (hcond0_1 t).mp hc; have h2 := lt64 t.isLt; omega
theorem is_c0 (t : Fin cfg0.N) (h : t.val = 0) : cond0_0 (grid0.coords t) := (hcond0_0 t).mpr (by omega)
theorem is_c1 (t : Fin cfg0.N) (h : t.val = 63) : cond0_1 (grid0.coords t) := (hcond0_1 t).mpr (by omega)

/-- THE ACCUMULATION: the accumulator after the body at position `n`. -/
def accAt (c : Dev nD) : (n : ℕ) → n < cfg0.N → Vec F S1x2 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (is_c0 ⟨0, hn⟩ rfl) (not_c1 ⟨0, hn⟩ (by show (0 : ℕ) ≠ 63; omega)) (iblk V c 0 ⟨0, hn⟩) (iblk V c 1 ⟨0, hn⟩) (iblk V c 2 ⟨0, hn⟩) (iblk V c 3 ⟨0, hn⟩)
  | n + 1, hn =>
    if h1 : n + 1 = 63 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (not_c0 ⟨n + 1, hn⟩ (Nat.succ_ne_zero n)) (is_c1 ⟨n + 1, hn⟩ h1) (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (not_c0 ⟨n + 1, hn⟩ (Nat.succ_ne_zero n)) (not_c1 ⟨n + 1, hn⟩ h1) (iblk V c 0 ⟨n + 1, hn⟩) (iblk V c 1 ⟨n + 1, hn⟩) (iblk V c 2 ⟨n + 1, hn⟩) (iblk V c 3 ⟨n + 1, hn⟩) (accAt c n (Nat.lt_of_succ_lt hn))

theorem accAt_A (c : Dev nD) (t : Fin cfg0.N) (h0 : t.val = 0) :
    accAt V c t.val t.isLt = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (is_c0 t h0) (not_c1 t (by omega)) (iblk V c 0 t) (iblk V c 1 t) (iblk V c 2 t) (iblk V c 3 t) := by
  obtain ⟨n, hn⟩ := t
  cases n with
  | zero => rfl
  | succ n => exact absurd h0 (Nat.succ_ne_zero n)
theorem accAt_B (c : Dev nD) (t : Fin cfg0.N) (h0 : t.val ≠ 0) (h1 : t.val ≠ 63) :
    accAt V c t.val t.isLt = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t h0) (not_c1 t h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact absurd rfl h0
  | succ n => exact (dif_neg h1).trans rfl
theorem accAt_C (c : Dev nD) (t : Fin cfg0.N) (h0 : t.val ≠ 0) (h1 : t.val = 63) :
    accAt V c t.val t.isLt = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t h0) (is_c1 t h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact absurd rfl h0
  | succ n => exact (dif_pos h1).trans rfl

/-- The result block after the body at point `t`: at the last point what the last run stores; elsewhere the window is
    idle and this value is never consulted. -/
def outAt (c : Dev nD) (t : Fin cfg0.N) : Vec F S1x1 .f32 :=
  if h1 : t.val = 63 then
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t (by omega)) (is_c1 t h1) (iblk V c 0 t) (iblk V c 1 t) (iblk V c 2 t) (iblk V c 3 t) (accAt V c (t.val - 1) (Nat.lt_of_le_of_lt (Nat.sub_le _ _) t.isLt))
  else VO0_4.read (Elt F) VO0_4.junk

theorem outAt_C (c : Dev nD) (t : Fin cfg0.N) (h1 : t.val = 63) :
    outAt V c t = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (not_c0 t (by omega)) (is_c1 t h1) (iblk V c 0 t) (iblk V c 1 t) (iblk V c 2 t) (iblk V c 3 t) (accAt V c (t.val - 1) (Nat.lt_of_le_of_lt (Nat.sub_le _ _) t.isLt)) :=
  dif_pos h1

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare (accAt V c n hn)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt V c n hn)) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt V c (n - 1) (by omega))) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = outAt V c t := by dsimp only [dat0]
theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d

end Region

end Cert.KernelIdeal.Hand

end
-- ==== Proof.KI.Body.lean ====
/-
  The body obligation at every grid point.  The closed forms say which of the three runs a point takes; the invariant
  hands the run the accumulator (at anything at the first point, at what the point before left afterwards) and takes it
  back at this point's contents; the four input buffers hold their blocks and come back unchanged; the result buffer is
  handed back untouched except at the last point, where it comes back holding the loss.
-/
import proofs.«166508_j35665408426430_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val = 0
  · have h1 : t.val ≠ 63 := by omega
    rw [Dat.leavesExact_idle (dat0 V c) 4 t (idleAt0_4 t (not_c1 t h1)) (noFlush0_4 t (not_c1 t h1))]
    rw [accAt_A V c t h0]
    unfold sout0_A_0; (try dsimp only)
    rw [PhiS_castSucc V c t, PhiS_zero V c _ _ h0, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (is_c0 t h0) (not_c1 t h1) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat0 V c).leavesExact 4 t = owns (c : Thread nD τ) (ms0_4 t) fullShare ((dat0 V c).after 4 t) from by
        unfold Dat.leavesExact; rw [liveAt0_4 t (is_c1 t h1)], after0_4]
      rw [accAt_C V c t h0 h1, outAt_C V c t h1]
      unfold out0_C_4 sout0_C_0; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (not_c0 t h0) (is_c1 t h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (not_c1 t h1)) (noFlush0_4 t (not_c1 t h1))]
      rw [accAt_B V c t h0 h1]
      unfold sout0_B_0; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (not_c0 t h0) (not_c1 t h1) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨HS0, Hg⟩
  isplitl [HS0]
  · iexists _; iexact HS0
  iexact Hg

end Region

end Cert.KernelIdeal.Hand

end
-- ==== Proof.KI.Region.lean ====
/-
  The run of the whole program: two reshapes of the label vector on the host, the one kernel region, one reshape of
  the kernel's [1,1] result into the scalar result.

  The thread state between segments is "every unscoped buffer whole at the boundary's contents, the generator register
  at some state, nothing owed".  At the region's entry the first argument array, which two windows read, is split into
  two half shares, one per window; at the exit both windows hand their halves back at the unchanged contents and the
  halves are joined.  The region changes one buffer only: the kernel's result, which ends at what the last grid point
  wrote back.
-/
import proofs.«166508_j35665408426430_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the two reshapes of the labels: the region's entry. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- At the region's exit: the result buffer at what the write-backs leave, every other buffer as entered. -/
def W2 (c : Dev nD) : Valuation τ sig (Elt F) :=
  Function.update (W1 m ρ c) (Proc.devRef .tc main_v2) ((dat0 (V1 m ρ) c).arrAt 4 cfg0.N)
/-- After the last reshape: the return. -/
def W3 (c : Dev nD) : Valuation τ sig (Elt F) := StableHlo.after hostOps1 (W2 m ρ c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The unscoped buffers one by one; the arrays window by window -/

/-- The six unscoped buffers, each whole at the valuation's contents. -/
theorem held_eq (c : Dev nD) (W : Valuation τ sig (Elt F)) :
    (StableHlo.held (c : Thread nD τ) (Pipeline.ucRefs τ sig) W : sProp 𝕄)
      = iprop(((((c : Thread nD τ)).1, Proc.devRef .tc main_arg0) ↦{fullShare} W (Proc.devRef .tc main_arg0))
        ∗ ((((c : Thread nD τ)).1, Proc.devRef .tc main_arg1) ↦{fullShare} W (Proc.devRef .tc main_arg1))
        ∗ ((((c : Thread nD τ)).1, Proc.devRef .tc main_v0) ↦{fullShare} W (Proc.devRef .tc main_v0))
        ∗ ((((c : Thread nD τ)).1, Proc.devRef .tc main_v1) ↦{fullShare} W (Proc.devRef .tc main_v1))
        ∗ ((((c : Thread nD τ)).1, Proc.devRef .tc main_v2) ↦{fullShare} W (Proc.devRef .tc main_v2))
        ∗ ((((c : Thread nD τ)).1, Proc.devRef .tc main_v3) ↦{fullShare} W (Proc.devRef .tc main_v3))) := by
  unfold StableHlo.held
  exact BI.bigSep_eq_bigSepL_of_eq [Proc.devRef .tc main_arg0, Proc.devRef .tc main_arg1, Proc.devRef .tc main_v0, Proc.devRef .tc main_v1, Proc.devRef .tc main_v2, Proc.devRef .tc main_v3] (by decide) (by decide) _

section Arr
variable (V : (c : Dev nD) → (b : Ref sig .tc) → Buf (Elt F) ((c : Thread nD τ).loc b))

/-- The pipeline's arrays window by window: the first argument array at a half share for each of its two windows, the
    two label arrays and the result whole. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0)
        ∗ (((c : Thread nD τ).loc main_arg0) ↦{fullShare.right} G 1)
        ∗ (((c : Thread nD τ).loc main_v0) ↦{fullShare} G 2)
        ∗ (((c : Thread nD τ).loc main_v1) ↦{fullShare} G 3)
        ∗ (((c : Thread nD τ).loc main_v2) ↦{fullShare} G 4)) := by
  have h : ((dat0 V c).arrays G : sProp 𝕄)
      = bigSep Finset.univ fun w : Fin cfg0.W => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

end Arr

end Cert.KernelIdeal.Hand

end
-- ==== Proof.KI.Seg.lean ====
/-
  The kernel region as a segment between thread states, the two host stretches, and the launch.
-/
import proofs.«166508_j35665408426430_1_alg».proof.Proof.KI.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_v2 (c : Dev nD) : W2 m ρ c (Proc.devRef .tc main_v2) = (dat0 (V1 m ρ) c).arrAt 4 cfg0.N := by
  unfold W2; exact Function.update_self _ _ _
theorem W2_of_ne (c : Dev nD) (b : DevRef τ sig) (hb : b ≠ Proc.devRef .tc main_v2) : W2 m ρ c b = W1 m ρ c b := by
  unfold W2; exact Function.update_of_ne hb _ _

section Arr
variable (V : (c : Dev nD) → (b : Ref sig .tc) → Buf (Elt F) ((c : Thread nD τ).loc b))
/-- An input window's array is never written: it ends as entered. -/
theorem arrN_0 (c : Dev nD) : (dat0 V c).arrAt 0 cfg0.N = V c main_arg0 := ((dat0 V c).arrAt_in 0 rfl _).trans (A_eq V c 0)
theorem arrN_1 (c : Dev nD) : (dat0 V c).arrAt 1 cfg0.N = V c main_arg0 := ((dat0 V c).arrAt_in 1 rfl _).trans (A_eq V c 1)
theorem arrN_2 (c : Dev nD) : (dat0 V c).arrAt 2 cfg0.N = V c main_v0 := ((dat0 V c).arrAt_in 2 rfl _).trans (A_eq V c 2)
theorem arrN_3 (c : Dev nD) : (dat0 V c).arrAt 3 cfg0.N = V c main_v1 := ((dat0 V c).arrAt_in 3 rfl _).trans (A_eq V c 3)
end Arr

/-- ENTRY: the six unscoped buffers are the five windows' arrays — the first argument array split in two halves — and
    the two buffers that bypass the region. -/
theorem entry_core (c : Dev nD) :
    (StableHlo.held (c : Thread nD τ) (Pipeline.ucRefs τ sig) (W1 m ρ c) : sProp 𝕄)
      ⊢ iprop((dat0 (V1 m ρ) c).arrays ((dat0 (V1 m ρ) c).arrAt · 0) ∗ Pipeline.unscopedRest (Ix := Unit) (Name := ℕ) (U := UR sig nD τ) (Lvl := ℕ) spec0 c (V1 m ρ c)) := by
  rw [held_eq, arrays_eq0, unscopedRest0_eq]
  iintro ⟨H0, H1, H2, H3, H4, H5⟩
  ihave Hs := (pointsTo_share (PosShare.mem_left_op_right fullShare)).1 $$ H0
  icases Hs with ⟨Hl, Hr⟩
  isplitl [Hl Hr H2 H3 H4]
  · isplitl [Hl]; · iexact Hl
    isplitl [Hr]; · iexact Hr
    isplitl [H2]; · iexact H2
    isplitl [H3]; · iexact H3
    iexact H4
  isplitl [H1]; · iexact H1
  iexact H5

/-- EXIT: the halves of the first argument array come back at the unchanged contents and are joined; the result buffer
    comes back at what the write-backs left. -/
theorem exit_core (c : Dev nD) :
    iprop((dat0 (V1 m ρ) c).arrays ((dat0 (V1 m ρ) c).arrAt · cfg0.N) ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [held_eq, arrays_eq0, unscopedRest0_eq]
  rw [W2_v2, W2_of_ne m ρ c (Proc.devRef .tc main_arg0) (by decide), W2_of_ne m ρ c (Proc.devRef .tc main_arg1) (by decide),
    W2_of_ne m ρ c (Proc.devRef .tc main_v0) (by decide), W2_of_ne m ρ c (Proc.devRef .tc main_v1) (by decide),
    W2_of_ne m ρ c (Proc.devRef .tc main_v3) (by decide)]
  dsimp only
  rw [arrN_0, arrN_1, arrN_2, arrN_3]
  iintro ⟨⟨Hl, Hr, H2, H3, H4⟩, H1, H5⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  iexact H5

/-! ## The host stretches read over any valuation -/

theorem after0_arg0 (W : Valuation τ sig (Elt F)) :
    StableHlo.after (hostOps0 (F := F)) W (Proc.devRef .tc main_arg0) = W (Proc.devRef .tc main_arg0) := by
  after_results_simp <;> rfl
theorem after0_arg1 (W : Valuation τ sig (Elt F)) :
    StableHlo.after (hostOps0 (F := F)) W (Proc.devRef .tc main_arg1) = W (Proc.devRef .tc main_arg1) := by
  after_results_simp <;> rfl
theorem after0_v0 (W : Valuation τ sig (Elt F)) :
    StableHlo.after (hostOps0 (F := F)) W (Proc.devRef .tc main_v0) = shapeCast S8192x1 (W (Proc.devRef .tc main_arg1)) shapeCasts_S8192_S8192x1 := by
  after_results_simp <;> rfl
theorem after0_v1 (W : Valuation τ sig (Elt F)) :
    StableHlo.after (hostOps0 (F := F)) W (Proc.devRef .tc main_v1) = shapeCast S1x8192 (W (Proc.devRef .tc main_arg1)) shapeCasts_S8192_S1x8192 := by
  after_results_simp <;> rfl
theorem after1_arg0 (W : Valuation τ sig (Elt F)) :
    StableHlo.after (hostOps1 (F := F)) W (Proc.devRef .tc main_arg0) = W (Proc.devRef .tc main_arg0) := by
  after_results_simp <;> rfl
theorem after1_arg1 (W : Valuation τ sig (Elt F)) :
    StableHlo.after (hostOps1 (F := F)) W (Proc.devRef .tc main_arg1) = W (Proc.devRef .tc main_arg1) := by
  after_results_simp <;> rfl
theorem after1_v3 (W : Valuation τ sig (Elt F)) :
    StableHlo.after (hostOps1 (F := F)) W (Proc.devRef .tc main_v3) = shapeCast S_ (W (Proc.devRef .tc main_v2)) shapeCasts_S1x1_S_ := by
  after_results_simp <;> rfl

/-- The region's entry contents, buffer by buffer. -/
theorem V1_arg0 (c : Dev nD) : V1 m ρ c main_arg0 = m ((c : Thread nD τ).loc main_arg0) := by
  show W1 m ρ c (Proc.devRef .tc main_arg0) = _; unfold W1; exact after0_arg0 _
theorem V1_v0 (c : Dev nD) : V1 m ρ c main_v0 = shapeCast S8192x1 (m ((c : Thread nD τ).loc main_arg1)) shapeCasts_S8192_S8192x1 := by
  show W1 m ρ c (Proc.devRef .tc main_v0) = _; unfold W1; exact after0_v0 _
theorem V1_v1 (c : Dev nD) : V1 m ρ c main_v1 = shapeCast S1x8192 (m ((c : Thread nD τ).loc main_arg1)) shapeCasts_S8192_S1x8192 := by
  show W1 m ρ c (Proc.devRef .tc main_v1) = _; unfold W1; exact after0_v1 _

/-- The arguments end as launched, and the scalar result is the kernel's [1,1] result re-laid. -/
theorem W3_arg0 (c : Dev nD) : W3 m ρ c (Proc.devRef .tc main_arg0) = m ((c : Thread nD τ).loc main_arg0) := by
  unfold W3; rw [after1_arg0, W2_of_ne m ρ c _ (by decide)]; unfold W1; exact after0_arg0 _
theorem W3_arg1 (c : Dev nD) : W3 m ρ c (Proc.devRef .tc main_arg1) = m ((c : Thread nD τ).loc main_arg1) := by
  unfold W3; rw [after1_arg1, W2_of_ne m ρ c _ (by decide)]; unfold W1; exact after0_arg1 _
theorem W3_v3 (c : Dev nD) : W3 m ρ c (Proc.devRef .tc main_v3) = shapeCast S_ ((dat0 (V1 m ρ) c).arrAt 4 cfg0.N) shapeCasts_S1x1_S_ := by
  unfold W3; rw [after1_v3, W2_v2]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have he := entry_core m ρ c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 0).pre c (fun _ => fullShare) (adm (F := F) 0).1 ∗ Pipeline.scopedRest spec0 c) ⊢ (Pipeline.ΦA spec0 c : sProp 𝕄) from by
      unfold Pipeline.ΦA
      iintro ⟨Hp, -, Hr⟩
      isplitl [Hr]; · iexact Hr
      iexact Hp).trans (hin0 (V1 m ρ) c)
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hx := exit_core m ρ c
    iintro ⟨Ha, HO, HY, Hrest⟩
    imodintro
    isplitl [Ha Hrest]
    · iapply hx
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: every weakly fair execution of the program terminates, nothing faulting; the scalar result ends at the
    kernel's [1,1] result block — what the last grid point wrote back — re-laid as a scalar, and the two argument
    arrays end as launched. -/
theorem run_main : θ_run defs (onTc (τ := τ) (main (F := F))) ⟨m, fun _ => 0, ρ⟩ (fun r => ∀ c : Dev nD,
      r.2.mem ((c.tc : Thread nD τ).loc main_v3) = shapeCast S_ ((dat0 (V1 m ρ) c).arrAt 4 cfg0.N) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_v3 m ρ c),
       (h c _ (mem_uc main_arg0 (by decide))).trans (W3_arg0 m ρ c),
       (h c _ (mem_uc main_arg1 (by decide))).trans (W3_arg1 m ρ c)⟩)

end Cert.KernelIdeal.Hand

end
-- ==== Proof.KI.Pieces.lean ====
/-
  What the three runs of the kernel body leave, cell by cell.

  The accumulator has two cells, `(0, 0)` and `(0, 1)`. A run stores into each through the one-element rectangle at that
  cell, after loading the cell through the same rectangle; the first run stores the zero block into the whole
  accumulator before, the last run loads the two updated cells afterwards and stores one element into the result block.
  The contents a list of stores leaves are, at each index, the payload of the latest store whose rectangle holds the
  index: read at cell `(0, 1)` that is the latest store's payload, at cell `(0, 0)` the one before it (the latest store
  does not hold `(0, 0)`). A one-element vector is the constant function at its only entry, so each loaded vector is
  written as `fun _ => (the cell it read)`.
-/
import proofs.«166508_j35665408426430_1_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two cells' rectangles -/

/-- The one-element rectangle at cell `(0, 0)` of the accumulator … -/
abbrev rc00 : Rect S1x2 := Rect.unit (s := S1x2) ![0, 0] S1x1.size inb_S1x2_S1x1_0_0
/-- … the one at cell `(0, 1)` … -/
abbrev rc01 : Rect S1x2 := Rect.unit (s := S1x2) ![0, 1] S1x1.size inb_S1x2_S1x1_0_1
/-- … and the whole accumulator. -/
abbrev rcW : Rect S1x2 := Rect.unit (s := S1x2) ![0, 0] S1x2.size inb_S1x2_S1x2_0_0
/-- The result block's one element. -/
abbrev rcO : Rect S1x1 := Rect.unit (s := S1x1) ![0, 0] S1x1.size inb_S1x1_S1x1_0_0

theorem pc_hz : (![0, 0] : Fin 2 → Nat) = fun _ => 0 := funext fun a => by fin_cases a <;> rfl

/-- The accumulator's two cells and the one-element block's only index. -/
abbrev c00 : S1x2.Idx := ix2 (0 : Fin 1) (0 : Fin 2)
abbrev c01 : S1x2.Idx := ix2 (0 : Fin 1) (1 : Fin 2)
abbrev o00 : S1x1.Idx := ix2 (0 : Fin 1) (0 : Fin 1)

/-- A one-element block has one index. -/
theorem pc_idx11 (j : S1x1.Idx) : j = o00 :=
  (eq_ix2 j).trans (congrArg₂ ix2 (Subsingleton.elim (α := Fin 1) _ _) (Subsingleton.elim (α := Fin 1) _ _))

/-- The only index of the rectangle at `(0, 0)` sits at cell `(0, 0)`, -/
theorem pc_idx00 : rc00.toLoadRect.idx o00 = c00 := by
  funext a; match a with | ⟨0, _⟩ => rfl | ⟨1, _⟩ => rfl
/-- that of the rectangle at `(0, 1)` at cell `(0, 1)`. -/
theorem pc_idx01 : rc01.toLoadRect.idx o00 = c01 := by
  funext a; match a with | ⟨0, _⟩ => rfl | ⟨1, _⟩ => rfl

/-- Cell `(0, 0)` is not in the rectangle at `(0, 1)`, -/
theorem pc_not_mem01 : c00 ∉ rc01.set := by
  rw [Rect.mem_set_unit]
  intro h
  exact absurd (h 1).1 (by decide)
/-- nor cell `(0, 1)` in the rectangle at `(0, 0)`. -/
theorem pc_not_mem00 : c01 ∉ rc00.set := by
  rw [Rect.mem_set_unit]
  intro h
  exact absurd (h 1).2 (by decide)

section Cells
variable {Val : EltTy → Type} [∀ e, Nonempty (Val e)]

/-- After a store at `(0, 1)` on top of one at `(0, 0)`, cell `(0, 0)` holds the earlier store's payload … -/
theorem pc_canon_00 (w1 : rc01.shape.Idx → Val .f32) (w0 : rc00.shape.Idx → Val .f32) (L : List (View.Piece Val S1x2 .f32)) :
    View.canon (⟨rc01, w1⟩ :: ⟨rc00, w0⟩ :: L) c00 = w0 o00 := by
  rw [View.canon_cons_of_not_mem _ _ pc_not_mem01]
  exact (congrArg _ pc_idx00.symm).trans (View.canon_cons_emb rc00 w0 L o00)
/-- … and cell `(0, 1)` the later store's. -/
theorem pc_canon_01 (w1 : rc01.shape.Idx → Val .f32) (L : List (View.Piece Val S1x2 .f32)) :
    View.canon (⟨rc01, w1⟩ :: L) c01 = w1 o00 :=
  (congrArg _ pc_idx01.symm).trans (View.canon_cons_emb rc01 w1 L o00)
/-- A store at `(0, 0)` leaves cell `(0, 1)` as the stores before it did. -/
theorem pc_canon_skip00 (w0 : rc00.shape.Idx → Val .f32) (L : List (View.Piece Val S1x2 .f32)) :
    View.canon (⟨rc00, w0⟩ :: L) c01 = View.canon L c01 :=
  View.canon_cons_of_not_mem _ _ pc_not_mem00
/-- A store into the whole accumulator leaves its payload. -/
theorem pc_canon_W (w : rcW.shape.Idx → Val .f32) (L : List (View.Piece Val S1x2 .f32)) :
    View.canon (⟨rcW, w⟩ :: L) = w := View.canon_cons_unit_zero (S := S1x2) pc_hz _ w L
/-- One store into the result block leaves its payload. -/
theorem pc_canon_O (w : rcO.shape.Idx → Val .f32) : View.canon [(⟨rcO, w⟩ : View.Piece Val S1x1 .f32)] = w :=
  View.canon_unit_zero (S := S1x1) pc_hz _ w

/-- A load of cell `(0, 0)` from contents `X` is the one-element vector at `X (0, 0)`; -/
theorem pc_ld00 (X : S1x2.Idx → Val .f32) : View.ld X rc00 = fun _ => X c00 :=
  funext fun j => by rw [pc_idx11 j]; exact congrArg X pc_idx00
/-- of cell `(0, 1)`, at `X (0, 1)`. -/
theorem pc_ld01 (X : S1x2.Idx → Val .f32) : View.ld X rc01 = fun _ => X c01 :=
  funext fun j => by rw [pc_idx11 j]; exact congrArg X pc_idx01

/-- A load of cell `(0, 0)` after the stores `L` is the one-element vector at what they leave there; -/
theorem pc_readCov00 {sig : RefSig} {κ : Kind} {sp : Space} (v : View sig κ sp S1x2 .f32) (L : List (View.Piece Val S1x2 .f32)) :
    v.readCov L rc00.toLoadRect = fun _ => View.canon L c00 := by
  rw [View.readCov_eq_canon']
  funext j
  rw [pc_idx11 j]
  exact congrArg _ pc_idx00
/-- of cell `(0, 1)` likewise. -/
theorem pc_readCov01 {sig : RefSig} {κ : Kind} {sp : Space} (v : View sig κ sp S1x2 .f32) (L : List (View.Piece Val S1x2 .f32)) :
    v.readCov L rc01.toLoadRect = fun _ => View.canon L c01 := by
  rw [View.readCov_eq_canon']
  funext j
  rw [pc_idx11 j]
  exact congrArg _ pc_idx01

end Cells

/-! ## The runs' stores, the input loads read -/

/-- A middle run's stores: cell `(0, 0)` updated from what it held, then cell `(0, 1)` from what it held. -/
theorem soutB_canon (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec F S1024x128 .f32) (x1 : Vec F S1024x128 .f32) (l0 : Vec F S1024x1 .i32) (l1 : Vec F S1x1024 .i32) (xs0 : Vec F S1x2 .f32) :
    sout0_B_0 c i arg2 harg2 arg3 harg3 arg4 harg4 arg5 harg5 arg6 harg6 arg7 harg7 hc0 hc1 x0 x1 l0 l1 xs0 = View.canon
      [⟨rc01, k0_pay3 (k0_pay7 x0 x1 l0 l1) (k0_pay8 x0 x1) (View.ld xs0 rc01)⟩, ⟨rc00, k0_pay2 (k0_pay7 x0 x1 l0 l1) (View.ld xs0 rc00)⟩] := by
  unfold sout0_B_0
  rw [View.read_writes_junk_eq_canon]
  unfold kernelRun0_B
  dsimp only
  sl_unfold_words
  simp only [View.readAt_eq_ld, harg2.read_unread, harg3.read_unread, harg4.read_unread, harg5.read_unread, harg7.read_unread,
    View.ld_unit_zero (S := S1024x128) pc_hz, View.ld_unit_zero (S := S1024x1) pc_hz, View.ld_unit_zero (S := S1x1024) pc_hz]

/-- The last run's stores into the accumulator: a middle run's. -/
theorem soutC_canon (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) :
    sout0_C_0 c i arg2 harg2 arg3 harg3 arg4 harg4 arg5 harg5 arg6 harg6 arg7 harg7 hc0 hc1 x0 x1 l0 l1 xs0 = View.canon
      [⟨rc01, k0_pay3 (k0_pay7 x0 x1 l0 l1) (k0_pay8 x0 x1) (View.ld xs0 rc01)⟩, ⟨rc00, k0_pay2 (k0_pay7 x0 x1 l0 l1) (View.ld xs0 rc00)⟩] := by
  unfold sout0_C_0
  rw [View.read_writes_junk_eq_canon]
  unfold kernelRun0_C
  dsimp only
  sl_unfold_words
  simp only [View.readAt_eq_ld, harg2.read_unread, harg3.read_unread, harg4.read_unread, harg5.read_unread, harg7.read_unread,
    View.ld_unit_zero (S := S1024x128) pc_hz, View.ld_unit_zero (S := S1024x1) pc_hz, View.ld_unit_zero (S := S1x1024) pc_hz]

/-- The first run's stores: the zero block into the whole accumulator, then the two cells, each loaded after the
    stores before it. -/
theorem soutA_canon (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec F S1024x128 .f32) (x1 : Vec F S1024x128 .f32) (l0 : Vec F S1024x1 .i32) (l1 : Vec F S1x1024 .i32) :
    sout0_A_0 c i arg2 harg2 arg3 harg3 arg4 harg4 arg5 harg5 arg6 harg6 arg7 harg7 hc0 hc1 x0 x1 l0 l1 = View.canon
      [⟨rc01, k0_pay3 (k0_pay7 x0 x1 l0 l1) (k0_pay8 x0 x1) (arg7.view.readCov
          [⟨rc00, k0_pay2 (k0_pay7 x0 x1 l0 l1) (arg7.view.readCov [⟨rcW, k0_pay5⟩] rc00.toLoadRect)⟩, ⟨rcW, k0_pay5⟩] rc01.toLoadRect)⟩,
       ⟨rc00, k0_pay2 (k0_pay7 x0 x1 l0 l1) (arg7.view.readCov [⟨rcW, k0_pay5⟩] rc00.toLoadRect)⟩, ⟨rcW, k0_pay5⟩] := by
  unfold sout0_A_0
  rw [View.read_writes_junk_eq_canon]
  unfold kernelRun0_A
  dsimp only
  sl_unfold_words
  simp only [View.readAt_eq_ld, harg2.read_unread, harg3.read_unread, harg4.read_unread, harg5.read_unread, harg7.read_unread,
    View.ld_unit_zero (S := S1024x128) pc_hz, View.ld_unit_zero (S := S1024x1) pc_hz, View.ld_unit_zero (S := S1x1024) pc_hz]

/-- The last run's store into the result block, from the two cells loaded after the accumulator's stores. -/
theorem outC_canon (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) :
    out0_C_4 c i arg2 harg2 arg3 harg3 arg4 harg4 arg5 harg5 arg6 harg6 arg7 harg7 hc0 hc1 x0 x1 l0 l1 xs0 = View.canon
      [⟨rcO, k0_pay4
        (arg7.view.readCov [⟨rc01, k0_pay3 (k0_pay7 x0 x1 l0 l1) (k0_pay8 x0 x1) (View.ld xs0 rc01)⟩, ⟨rc00, k0_pay2 (k0_pay7 x0 x1 l0 l1) (View.ld xs0 rc00)⟩] rc00.toLoadRect)
        (arg7.view.readCov [⟨rc01, k0_pay3 (k0_pay7 x0 x1 l0 l1) (k0_pay8 x0 x1) (View.ld xs0 rc01)⟩, ⟨rc00, k0_pay2 (k0_pay7 x0 x1 l0 l1) (View.ld xs0 rc00)⟩] rc01.toLoadRect)⟩] := by
  unfold out0_C_4
  rw [View.read_writes_junk_eq_canon]
  unfold kernelRun0_C
  dsimp only
  sl_unfold_words
  simp only [View.readAt_eq_ld, harg2.read_unread, harg3.read_unread, harg4.read_unread, harg5.read_unread, harg7.read_unread,
    View.ld_unit_zero (S := S1024x128) pc_hz, View.ld_unit_zero (S := S1024x1) pc_hz, View.ld_unit_zero (S := S1x1024) pc_hz]

/-! ## The cells each run leaves, for any float values -/

/-- After a middle run cell `(0, 0)` is the first update of what it held, -/
theorem cellB_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec F S1024x128 .f32) (x1 : Vec F S1024x128 .f32) (l0 : Vec F S1024x1 .i32) (l1 : Vec F S1x1024 .i32) (xs0 : Vec F S1x2 .f32) :
    sout0_B_0 c i arg2 harg2 arg3 harg3 arg4 harg4 arg5 harg5 arg6 harg6 arg7 harg7 hc0 hc1 x0 x1 l0 l1 xs0 c00 = k0_pay2 (k0_pay7 x0 x1 l0 l1) (fun _ => xs0 c00) o00 := by
  rw [soutB_canon c i arg2 harg2 arg3 harg3 arg4 harg4 arg5 harg5 arg6 harg6 arg7 harg7 hc0 hc1 x0 x1 l0 l1 xs0, pc_canon_00, pc_ld00]
  rfl
/-- and cell `(0, 1)` the second update of what it held. -/
theorem cellB_01 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec F S1024x128 .f32) (x1 : Vec F S1024x128 .f32) (l0 : Vec F S1024x1 .i32) (l1 : Vec F S1x1024 .i32) (xs0 : Vec F S1x2 .f32) :
    sout0_B_0 c i arg2 harg2 arg3 harg3 arg4 harg4 arg5 harg5 arg6 harg6 arg7 harg7 hc0 hc1 x0 x1 l0 l1 xs0 c01 = k0_pay3 (k0_pay7 x0 x1 l0 l1) (k0_pay8 x0 x1) (fun _ => xs0 c01) o00 := by
  rw [soutB_canon c i arg2 harg2 arg3 harg3 arg4 harg4 arg5 harg5 arg6 harg6 arg7 harg7 hc0 hc1 x0 x1 l0 l1 xs0, pc_canon_01, pc_ld01]
  rfl

/-- After the last run the accumulator's cells are a middle run's, -/
theorem cellC_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) :
    sout0_C_0 c i arg2 harg2 arg3 harg3 arg4 harg4 arg5 harg5 arg6 harg6 arg7 harg7 hc0 hc1 x0 x1 l0 l1 xs0 c00 = k0_pay2 (k0_pay7 x0 x1 l0 l1) (fun _ => xs0 c00) o00 := by
  rw [soutC_canon c i arg2 harg2 arg3 harg3 arg4 harg4 arg5 harg5 arg6 harg6 arg7 harg7 hc0 hc1 x0 x1 l0 l1 xs0, pc_canon_00, pc_ld00]
  rfl
theorem cellC_01 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) :
    sout0_C_0 c i arg2 harg2 arg3 harg3 arg4 harg4 arg5 harg5 arg6 harg6 arg7 harg7 hc0 hc1 x0 x1 l0 l1 xs0 c01 = k0_pay3 (k0_pay7 x0 x1 l0 l1) (k0_pay8 x0 x1) (fun _ => xs0 c01) o00 := by
  rw [soutC_canon c i arg2 harg2 arg3 harg3 arg4 harg4 arg5 harg5 arg6 harg6 arg7 harg7 hc0 hc1 x0 x1 l0 l1 xs0, pc_canon_01, pc_ld01]
  rfl
/-- and the result block's element is formed from the two updated cells. -/
theorem cellO_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec F S1024x128 .f32) (x1 : Vec F S1024x128 .f32) (l0 : Vec F S1024x1 .i32) (l1 : Vec F S1x1024 .i32) (xs0 : Vec F S1x2 .f32) :
    out0_C_4 c i arg2 harg2 arg3 harg3 arg4 harg4 arg5 harg5 arg6 harg6 arg7 harg7 hc0 hc1 x0 x1 l0 l1 xs0 o00
      = k0_pay4 (fun _ => sout0_C_0 c i arg2 harg2 arg3 harg3 arg4 harg4 arg5 harg5 arg6 harg6 arg7 harg7 hc0 hc1 x0 x1 l0 l1 xs0 c00) (fun _ => sout0_C_0 c i arg2 harg2 arg3 harg3 arg4 harg4 arg5 harg5 arg6 harg6 arg7 harg7 hc0 hc1 x0 x1 l0 l1 xs0 c01) o00 := by
  rw [outC_canon c i arg2 harg2 arg3 harg3 arg4 harg4 arg5 harg5 arg6 harg6 arg7 harg7 hc0 hc1 x0 x1 l0 l1 xs0, pc_canon_O, pc_readCov00, pc_readCov01, soutC_canon c i arg2 harg2 arg3 harg3 arg4 harg4 arg5 harg5 arg6 harg6 arg7 harg7 hc0 hc1 x0 x1 l0 l1 xs0]
  rfl

/-- After the first run the two cells are the updates of the zero block's cells. -/
theorem cellA_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec F S1024x128 .f32) (x1 : Vec F S1024x128 .f32) (l0 : Vec F S1024x1 .i32) (l1 : Vec F S1x1024 .i32) :
    sout0_A_0 c i arg2 harg2 arg3 harg3 arg4 harg4 arg5 harg5 arg6 harg6 arg7 harg7 hc0 hc1 x0 x1 l0 l1 c00 = k0_pay2 (k0_pay7 x0 x1 l0 l1) (fun _ => k0_pay5 (F := F) c00) o00 := by
  rw [soutA_canon c i arg2 harg2 arg3 harg3 arg4 harg4 arg5 harg5 arg6 harg6 arg7 harg7 hc0 hc1 x0 x1 l0 l1, pc_canon_00, pc_readCov00, pc_canon_W]
  rfl
theorem cellA_01 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec F S1024x128 .f32) (x1 : Vec F S1024x128 .f32) (l0 : Vec F S1024x1 .i32) (l1 : Vec F S1x1024 .i32) :
    sout0_A_0 c i arg2 harg2 arg3 harg3 arg4 harg4 arg5 harg5 arg6 harg6 arg7 harg7 hc0 hc1 x0 x1 l0 l1 c01 = k0_pay3 (k0_pay7 x0 x1 l0 l1) (k0_pay8 x0 x1) (fun _ => k0_pay5 (F := F) c01) o00 := by
  rw [soutA_canon c i arg2 harg2 arg3 harg3 arg4 harg4 arg5 harg5 arg6 harg6 arg7 harg7 hc0 hc1 x0 x1 l0 l1, pc_canon_01, pc_readCov01, pc_canon_skip00, pc_canon_W]
  rfl

end Cert.KernelIdeal.Hand

end
-- ==== Proof.Spec.lean ====
/-
  The loss as mathematics, apart from either program.

  A table `x` of `a` rows of 128 extended reals; row `p` has squared norm `sq x p = Σₖ x(p,k)²`, two rows (of two
  tables) have inner product `gram x y p q = Σₖ x(p,k)·y(q,k)`, and their clamped squared distance is
  `d2 x y p q = max (sq x p + sq y q − 2·gram x y p q) 0`.  With integer labels on the rows, `sameSum` adds `d2` over the
  pairs of equal labels, `diffSum` over the pairs of different labels, `totSum` over all pairs, and the loss is
  `(−½·same)/c + (½·diff)/2` with `c` the single-precision word nearest 0.08 (the same word in both programs, never
  evaluated).  `rowBlk` / `labBlk` cut rows `1024·i … 1024·i + 1023` out of a table / a label vector of 8192 rows: the
  blocks a grid of 8 × 8 points walks, point `t` taking row block `t / 8` against row block `t % 8`.
-/
import Idealize.ShloMosaic.PureOps.Ideal
import Idealize.ShloMosaic.Lib.ValueIdx

noncomputable section

open scoped BigOperators

namespace Cert.Metric

open Idealize.ShloMosaic Idealize.ShloMosaic.ValueIdx

/-- The float words the two programs share, read at the ideal instance. -/
abbrev ZERO : EReal := Ideal.ofBits .f32 0x00000000#32
abbrev TWO : EReal := Ideal.ofBits .f32 0x40000000#32
abbrev NEGHALF : EReal := Ideal.ofBits .f32 0xBF000000#32
abbrev HALF : EReal := Ideal.ofBits .f32 0x3F000000#32
abbrev C008 : EReal := Ideal.ofBits .f32 0x3DA3D70A#32

/-- A table of `a` rows of 128 extended reals. -/
abbrev Tab (a : Nat) : Type := (⟨2, ![a, 128]⟩ : Shape).Idx → EReal

/-- Row `p`'s squared norm. -/
def sq {a : Nat} (x : Tab a) (p : Fin a) : EReal := ∑ k : Fin 128, x (ix2 p k) * x (ix2 p k)

/-- The inner product of row `p` of `x` and row `q` of `y`. -/
def gram {a b : Nat} (x : Tab a) (y : Tab b) (p : Fin a) (q : Fin b) : EReal := ∑ k : Fin 128, x (ix2 p k) * y (ix2 q k)

/-- The squared distance of the two rows by the expansion `|u|² + |v|² − 2 u·v`, clamped below at zero. -/
def d2 {a b : Nat} (x : Tab a) (y : Tab b) (p : Fin a) (q : Fin b) : EReal :=
  max (sq x p + sq y q - TWO * gram x y p q) ZERO

/-- `d2` added over the pairs of rows with equal labels. -/
def sameSum {a b : Nat} (x : Tab a) (y : Tab b) (l : Fin a → BitVec 32) (l' : Fin b → BitVec 32) : EReal :=
  ∑ p : Fin a, ∑ q : Fin b, if l p = l' q then d2 x y p q else ZERO

/-- `d2` added over all pairs of rows. -/
def totSum {a b : Nat} (x : Tab a) (y : Tab b) : EReal := ∑ p : Fin a, ∑ q : Fin b, d2 x y p q

/-- `d2` added over the pairs of rows with different labels. -/
def diffSum {a b : Nat} (x : Tab a) (y : Tab b) (l : Fin a → BitVec 32) (l' : Fin b → BitVec 32) : EReal :=
  ∑ p : Fin a, ∑ q : Fin b, if l p = l' q then ZERO else d2 x y p q

/-- The loss from the two sums: `(−½·s)/c + (½·d)/2`. -/
def loss (s d : EReal) : EReal := Ideal.div (NEGHALF * s) C008 + Ideal.div (HALF * d) TWO

/-- Rows `1024·i … 1024·i + 1023` of a table of 8192 rows. -/
def rowBlk (x : Tab 8192) (i : Fin 8) : Tab 1024 := fun j =>
  x (ix2 (⟨i.val * 1024 + (j 0).val, by have := idx2_lt0 j; have := i.isLt; omega⟩ : Fin 8192) (j 1))

/-- Labels `1024·i … 1024·i + 1023` of 8192 labels. -/
def labBlk (l : Fin 8192 → BitVec 32) (i : Fin 8) : Fin 1024 → BitVec 32 := fun p =>
  l ⟨i.val * 1024 + p.val, by have := p.isLt; have := i.isLt; omega⟩

/-- The row block and the column block of grid point `t` of the 8 × 8 grid, row-major. -/
def gi (t : Fin 64) : Fin 8 := ⟨t.val / 8, by have := t.isLt; omega⟩
def gj (t : Fin 64) : Fin 8 := ⟨t.val % 8, by omega⟩

/-- Every entry is a real number (neither infinity). -/
def AllReal {a : Nat} (x : Tab a) : Prop := ∀ i, ∃ r : ℝ, x i = (r : EReal)

end Cert.Metric

end
-- ==== Proof.Payload.lean ====
/-
  The kernel's payloads read as mathematics at the ideal instance.

  Each payload is the arithmetic of one stretch of the kernel's body as one pure term over the vectors it loads. Read
  at the extended reals, where a change of float format is the identity and every operation is its textbook one:
  the block of clamped squared distances is `d2` entry by entry (row norms as a column and as a row, spread over the
  block, minus twice the table times the other's transpose, clamped at zero); masking it by "the row's label is the
  column's label" keeps `d2` on the pairs of equal labels and zero elsewhere; summing a block along its lanes and then
  down the column of sums is the double sum over its entries; and the last payloads are pointwise sums, differences
  and the loss formula on one-entry vectors.
-/
import proofs.«166508_j35665408426430_1_alg».proof.Proof.Spec
import proofs.«166508_j35665408426430_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Metric.Payload

open Cert.KernelIdeal Cert.KernelIdeal.Gen Cert.Metric Idealize.ShloMosaic Idealize.ShloMosaic.ValueIdx

/-! ## One-entry payloads: pointwise arithmetic, a cast to the same shape the identity -/

/-- The two running sums start at the zero word. -/
theorem pay5_eq : k0_pay5 (F := Ideal) = fun _ => ZERO := by
  unfold k0_pay5
  exact shapeCast_self _ _

/-- The loss from the two accumulated sums. -/
theorem pay4_eq (v58 v59 : Vec Ideal S1x1 .f32) : k0_pay4 (F := Ideal) v58 v59 = fun i => loss (v58 i) (v59 i) := by
  unfold k0_pay4
  rfl

/-- The first running sum takes the block's masked sum. -/
theorem pay2_eq (v33 : FVec Ideal S1024x1024 .f32) (v43 : Vec Ideal S1x1 .f32) :
    k0_pay2 (F := Ideal) v33 v43 = fun i => v43 i + k0_pay1 (F := Ideal) v33 i := by
  unfold k0_pay2
  exact shapeCast_self _ _

/-- The second running sum takes the block's whole sum less its masked sum. -/
theorem pay3_eq (v33 : FVec Ideal S1024x1024 .f32) (v37 : FVec Ideal S1x1 .f32) (v48 : Vec Ideal S1x1 .f32) :
    k0_pay3 (F := Ideal) v33 v37 v48 = fun i => v48 i + (v37 i - k0_pay1 (F := Ideal) v33 i) := by
  unfold k0_pay3
  exact shapeCast_self _ _

/-! ## Layout readings the library leaves to the reader: the column forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along the lanes -/

/-- The sum over the columns of a matrix, read at row `p`. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => ?_
  exact congrArg v (funext fun c => Fin.ext (by match c with | ⟨0, _⟩ => rfl | ⟨1, _⟩ => rfl))

/-- The sum over the rows of a matrix, read at column `q`. -/
theorem colSum_apply {a b : ℕ} (v : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction (F := Ideal) .add [0] ⟨1, ![b]⟩ v 0x00000000#32 h hφ hacc (ix1 q) = ∑ k : Fin a, v (ix2 k q) := by
  refine (Ideal.multiReduction_add_single v _ h hφ hacc (ix1 q)).trans ?_
  refine Finset.sum_congr rfl fun k _ => ?_
  exact congrArg v (funext fun c => Fin.ext (by match c with | ⟨0, _⟩ => rfl | ⟨1, _⟩ => rfl))

/-! ## The three ingredients of a squared distance, read at `(p, q)` -/

/-- The squared norms of the rows, as a column spread over the columns: at `(p, q)` row `p`'s squared norm. -/
theorem sqCol_apply (x : Vec Ideal S1024x128 .f32) (p q : Fin 1024) :
    broadcastTo S1024x1024
      (shapeCast S1024x1 (multiReduction (F := Ideal) .add [1] S1024 (mulf x x) 0x00000000#32 reduces_S1024x128_S1024 (.inl rfl) rfl)
        shapeCasts_S1024_S1024x1) broadcasts_S1024x1_S1024x1024 (ix2 p q) = sq (x : Tab 1024) p := by
  refine (broadcastTo_a1_ab_apply _ _ p q).trans ?_
  refine (shapeCast_a_a1_apply _ _ p (0 : Fin 1)).trans ?_
  exact rowSum_apply (mulf x x) _ _ _ p

/-- The squared norms of the rows, as a row spread over the rows: at `(p, q)` row `q`'s squared norm. -/
theorem sqRow_apply (x : Vec Ideal S1024x128 .f32) (p q : Fin 1024) :
    broadcastTo S1024x1024
      (shapeCast S1x1024 (multiReduction (F := Ideal) .add [1] S1024 (mulf x x) 0x00000000#32 reduces_S1024x128_S1024 (.inl rfl) rfl)
        shapeCasts_S1024_S1x1024) broadcasts_S1x1024_S1024x1024 (ix2 p q) = sq (x : Tab 1024) q := by
  refine (broadcastTo_1b_ab_apply _ _ p q).trans ?_
  refine (shapeCast_a_1a_apply _ _ (0 : Fin 1) q).trans ?_
  exact rowSum_apply (mulf x x) _ _ _ q

/-- The left operand's index at output `i` and contraction index `c`: row `i 0` … -/
theorem lhs_0 (i : S1024x1024.Idx) (c : dot_S1024x128_S128x1024_S1024x1024_1_0_0_1_n_n.contr.Idx) : (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- … column `c`. -/
theorem lhs_1 (i : S1024x1024.Idx) (c : dot_S1024x128_S128x1024_S1024x1024_1_0_0_1_n_n.contr.Idx) : (dot_S1024x128_S128x1024_S1024x1024_1_0_0_1_n_n.lhsIdx i c 1).val = (c ⟨0, by decide⟩).val :=
  dot_S1024x128_S128x1024_S1024x1024_1_0_0_1_n_n.lhsIdx_val_of_single rfl i c
/-- The right operand's: row `c` … -/
theorem rhs_0 (i : S1024x1024.Idx) (c : dot_S1024x128_S128x1024_S1024x1024_1_0_0_1_n_n.contr.Idx) : (dot_S1024x128_S128x1024_S1024x1024_1_0_0_1_n_n.rhsIdx i c 0).val = (c ⟨0, by decide⟩).val :=
  dot_S1024x128_S128x1024_S1024x1024_1_0_0_1_n_n.rhsIdx_val_of_single rfl i c
/-- … column `i 1`. -/
theorem rhs_1 (i : S1024x1024.Idx) (c : dot_S1024x128_S128x1024_S1024x1024_1_0_0_1_n_n.contr.Idx) : (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product of one table with the transpose of the other, from the zero accumulator: at `(p, q)` the inner
    product of row `p` of the first and row `q` of the second (a change of float format is the identity on the
    extended reals). -/
theorem gram_apply (x y : Vec Ideal S1024x128 .f32) (p q : Fin 1024) :
    matmul (F := Ideal) dot_S1024x128_S128x1024_S1024x1024_1_0_0_1_n_n none (truncf .bf16 x bitsLt_bf16_f32)
      (transpose S128x1024 [1, 0] (truncf .bf16 y bitsLt_bf16_f32) transposes_S1024x128_p1_0_S128x1024)
      (constant S1024x1024 .f32 0x00000000#32) (ix2 p q) = gram (x : Tab 1024) (y : Tab 1024) p q := by
  refine (Ideal.matmul_constant_zero_apply dot_S1024x128_S128x1024_S1024x1024_1_0_0_1_n_n none _ _ (ix2 p q)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k :=
    funext fun c => Fin.ext (by
      match c with
      | ⟨0, _⟩ => exact lhs_0 _ _
      | ⟨1, _⟩ => exact (lhs_1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q :=
    funext fun c => Fin.ext (by
      match c with
      | ⟨0, _⟩ => exact (rhs_0 _ _).trans hk
      | ⟨1, _⟩ => exact rhs_1 _ _)
  have ht : transpose S128x1024 [1, 0] (truncf (F := Ideal) .bf16 y bitsLt_bf16_f32) transposes_S1024x128_p1_0_S128x1024 (ix2 k q)
      = y (ix2 q k) :=
    transpose_ix2_apply (truncf (F := Ideal) .bf16 y bitsLt_bf16_f32) transposes_S1024x128_p1_0_S128x1024 k q
  rw [el, er, ht]
  rfl

/-! ## The clamped squared distances -/

/-- Assembling a clamped difference from its parts, at one index: the arithmetic of the extended reals, pointwise. -/
theorem clamp_apply (a b m : FVec Ideal S1024x1024 .f32) (i : S1024x1024.Idx) :
    maximumf (subf (addf a b) (mulf (broadcast S1024x1024 (Scalar.ofBits (F := Ideal) .f32 0x40000000#32)) m))
      (broadcast S1024x1024 (Scalar.ofBits (F := Ideal) .f32 0x00000000#32)) i = max (a i + b i - TWO * m i) ZERO := rfl

/-- The block of clamped squared distances, read at `(p, q)`. -/
theorem pay6_apply (x0 x1 : Vec Ideal S1024x128 .f32) (p q : Fin 1024) :
    k0_pay6 (F := Ideal) x0 x1 (ix2 p q) = d2 (x0 : Tab 1024) (x1 : Tab 1024) p q := by
  unfold k0_pay6
  refine (clamp_apply _ _ _ (ix2 p q)).trans ?_
  unfold d2
  rw [sqCol_apply x0 p q, sqRow_apply x1 p q, gram_apply x0 x1 p q]

/-! ## The pairs of equal labels -/

/-- A select on an integer equality, read at an index, is the `if` on the equality of the two words there. -/
theorem select_cmpi_eq_apply {s : Shape} {α : Type} (a b : IVec s 32) (u w : s.Idx → α) (i : s.Idx) :
    select (cmpi .eq a b) u w i = if a i = b i then u i else w i := by
  show (if IntOp.cmpi .eq (a i) (b i) = 1#1 then u i else w i) = _
  exact if_congr IntOp.cmpi_eq rfl rfl

/-- A block masked by "the row's label is the column's label", read at `(p, q)`. -/
theorem mask_apply (l0 : IVec S1024x1 32) (l1 : IVec S1x1024 32) (v : FVec Ideal S1024x1024 .f32) (p q : Fin 1024) :
    select (cmpi .eq
        (broadcastTo S1024x1024 (shapeCast S1024x1 l0 shapeCasts_S1024x1_S1024x1) broadcasts_S1024x1_S1024x1024)
        (broadcastTo S1024x1024 (shapeCast S1x1024 l1 shapeCasts_S1x1024_S1x1024) broadcasts_S1x1024_S1024x1024))
      v (broadcast S1024x1024 (Scalar.ofBits (F := Ideal) .f32 0x00000000#32)) (ix2 p q)
      = if l0 (ix2 p (0 : Fin 1)) = l1 (ix2 (0 : Fin 1) q) then v (ix2 p q) else ZERO := by
  refine (select_cmpi_eq_apply _ _ _ _ _).trans ?_
  have h0 : broadcastTo S1024x1024 (shapeCast S1024x1 l0 shapeCasts_S1024x1_S1024x1) broadcasts_S1024x1_S1024x1024 (ix2 p q)
      = l0 (ix2 p (0 : Fin 1)) := by
    rw [shapeCast_self]; exact broadcastTo_a1_ab_apply _ _ p q
  have h1 : broadcastTo S1024x1024 (shapeCast S1x1024 l1 shapeCasts_S1x1024_S1x1024) broadcasts_S1x1024_S1024x1024 (ix2 p q)
      = l1 (ix2 (0 : Fin 1) q) := by
    rw [shapeCast_self]; exact broadcastTo_1b_ab_apply _ _ p q
  rw [h0, h1]
  rfl

/-- The block of clamped squared distances with the pairs of different labels zeroed, read at `(p, q)`. -/
theorem pay7_apply (x0 x1 : Vec Ideal S1024x128 .f32) (l0 : Vec Ideal S1024x1 .i32) (l1 : Vec Ideal S1x1024 .i32) (p q : Fin 1024) :
    k0_pay7 (F := Ideal) x0 x1 l0 l1 (ix2 p q)
      = if l0 (ix2 p (0 : Fin 1)) = l1 (ix2 (0 : Fin 1) q) then d2 (x0 : Tab 1024) (x1 : Tab 1024) p q else ZERO := by
  unfold k0_pay7
  refine (mask_apply l0 l1 (k0_pay6 (F := Ideal) x0 x1) p q).trans ?_
  rw [pay6_apply]

/-! ## The sum of a whole block -/

/-- A block summed along its lanes, the column of sums summed again: at the one index of the result, the double sum. -/
theorem total_apply (v : FVec Ideal S1024x1024 .f32) (i : S1x1.Idx) :
    shapeCast S1x1
      (multiReduction (F := Ideal) .add [0] S1
        (shapeCast S1024x1 (multiReduction (F := Ideal) .add [1] S1024 v 0x00000000#32 reduces_S1024x1024_S1024 (.inl rfl) rfl)
          shapeCasts_S1024_S1024x1)
        0x00000000#32 reduces_S1024x1_S1 (.inl rfl) rfl) shapeCasts_S1_S1x1 i
      = ∑ p : Fin 1024, ∑ q : Fin 1024, v (ix2 p q) := by
  obtain ⟨a, b, rfl⟩ : ∃ (a b : Fin 1), i = ix2 a b := ⟨_, _, eq_ix2 i⟩
  refine (shapeCast_a_1a_apply _ _ a b).trans ?_
  refine (colSum_apply _ _ _ _ b).trans ?_
  refine Finset.sum_congr rfl fun p _ => ?_
  refine (shapeCast_a_a1_apply _ _ p b).trans ?_
  exact rowSum_apply v _ _ _ p

/-- The sum of all the clamped squared distances of the block. -/
theorem pay8_eq (x0 x1 : Vec Ideal S1024x128 .f32) :
    k0_pay8 (F := Ideal) x0 x1 = fun _ => totSum (x0 : Tab 1024) (x1 : Tab 1024) := by
  funext i
  unfold k0_pay8
  refine (total_apply (k0_pay6 (F := Ideal) x0 x1) i).trans ?_
  unfold totSum
  exact Finset.sum_congr rfl fun p _ => Finset.sum_congr rfl fun q _ => pay6_apply x0 x1 p q

/-- The sum of the clamped squared distances over the pairs of equal labels. -/
theorem pay1_pay7_eq (x0 x1 : Vec Ideal S1024x128 .f32) (l0 : Vec Ideal S1024x1 .i32) (l1 : Vec Ideal S1x1024 .i32) :
    k0_pay1 (F := Ideal) (k0_pay7 (F := Ideal) x0 x1 l0 l1)
      = fun _ => sameSum (x0 : Tab 1024) (x1 : Tab 1024) (fun p : Fin 1024 => l0 (ix2 p (0 : Fin 1)))
          (fun q : Fin 1024 => l1 (ix2 (0 : Fin 1) q)) := by
  funext i
  unfold k0_pay1
  refine (total_apply (k0_pay7 (F := Ideal) x0 x1 l0 l1) i).trans ?_
  unfold sameSum
  exact Finset.sum_congr rfl fun p _ => Finset.sum_congr rfl fun q _ => pay7_apply x0 x1 l0 l1 p q

end Cert.Metric.Payload

end
-- ==== Proof.KI.Cells.lean ====
/-
  The cells each run of the kernel body leaves, at the extended reals.

  With `S` the sum of the clamped squared distances over the equal-label pairs of the two row blocks and `T` the sum over
  all pairs: a run adds `S` to cell `(0, 0)` and `T − S` to cell `(0, 1)`; the first run starts both cells at zero; the last
  run stores the loss of the two updated cells into the result block.
-/
import proofs.«166508_j35665408426430_1_alg».proof.Proof.KI.Pieces
import proofs.«166508_j35665408426430_1_alg».proof.Proof.Payload

set_option maxRecDepth 16384

noncomputable section

namespace Cert.KernelIdeal.Hand

open Cert.KernelIdeal Cert.KernelIdeal.Gen
open Cert.Metric Cert.Metric.Payload
open Idealize.ShloMosaic Idealize.ShloMosaic.TcCoe
open Idealize.ShloMosaic.ValueIdx

/-- A middle run adds the equal-label sum to cell `(0, 0)` … -/
theorem accB_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec Ideal S1024x128 .f32) (x1 : Vec Ideal S1024x128 .f32) (l0 : Vec Ideal S1024x1 .i32) (l1 : Vec Ideal S1x1024 .i32) (xs0 : Vec Ideal S1x2 .f32) :
    sout0_B_0 (F := Ideal) c i arg2 harg2 arg3 harg3 arg4 harg4 arg5 harg5 arg6 harg6 arg7 harg7 hc0 hc1 x0 x1 l0 l1 xs0 (ix2 (0 : Fin 1) (0 : Fin 2))
      = xs0 (ix2 (0 : Fin 1) (0 : Fin 2)) + sameSum (x0 : Tab 1024) (x1 : Tab 1024) (fun p : Fin 1024 => l0 (ix2 p (0 : Fin 1))) (fun q : Fin 1024 => l1 (ix2 (0 : Fin 1) q)) := by
  rw [cellB_00 (F := Ideal) c i arg2 harg2 arg3 harg3 arg4 harg4 arg5 harg5 arg6 harg6 arg7 harg7 hc0 hc1 x0 x1 l0 l1 xs0, pay2_eq, pay1_pay7_eq]
/-- … and the rest of the all-pairs sum to cell `(0, 1)`. -/
theorem accB_01 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : ¬cond0_1 i) (x0 : Vec Ideal S1024x128 .f32) (x1 : Vec Ideal S1024x128 .f32) (l0 : Vec Ideal S1024x1 .i32) (l1 : Vec Ideal S1x1024 .i32) (xs0 : Vec Ideal S1x2 .f32) :
    sout0_B_0 (F := Ideal) c i arg2 harg2 arg3 harg3 arg4 harg4 arg5 harg5 arg6 harg6 arg7 harg7 hc0 hc1 x0 x1 l0 l1 xs0 (ix2 (0 : Fin 1) (1 : Fin 2))
      = xs0 (ix2 (0 : Fin 1) (1 : Fin 2)) + (totSum (x0 : Tab 1024) (x1 : Tab 1024) - sameSum (x0 : Tab 1024) (x1 : Tab 1024) (fun p : Fin 1024 => l0 (ix2 p (0 : Fin 1))) (fun q : Fin 1024 => l1 (ix2 (0 : Fin 1) q))) := by
  rw [cellB_01 (F := Ideal) c i arg2 harg2 arg3 harg3 arg4 harg4 arg5 harg5 arg6 harg6 arg7 harg7 hc0 hc1 x0 x1 l0 l1 xs0, pay3_eq, pay8_eq, pay1_pay7_eq]

/-- The last run does the same to the accumulator … -/
theorem accC_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec Ideal S1024x128 .f32) (x1 : Vec Ideal S1024x128 .f32) (l0 : Vec Ideal S1024x1 .i32) (l1 : Vec Ideal S1x1024 .i32) (xs0 : Vec Ideal S1x2 .f32) :
    sout0_C_0 (F := Ideal) c i arg2 harg2 arg3 harg3 arg4 harg4 arg5 harg5 arg6 harg6 arg7 harg7 hc0 hc1 x0 x1 l0 l1 xs0 (ix2 (0 : Fin 1) (0 : Fin 2))
      = xs0 (ix2 (0 : Fin 1) (0 : Fin 2)) + sameSum (x0 : Tab 1024) (x1 : Tab 1024) (fun p : Fin 1024 => l0 (ix2 p (0 : Fin 1))) (fun q : Fin 1024 => l1 (ix2 (0 : Fin 1) q)) := by
  rw [cellC_00 (F := Ideal) c i arg2 harg2 arg3 harg3 arg4 harg4 arg5 harg5 arg6 harg6 arg7 harg7 hc0 hc1 x0 x1 l0 l1 xs0, pay2_eq, pay1_pay7_eq]
theorem accC_01 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec Ideal S1024x128 .f32) (x1 : Vec Ideal S1024x128 .f32) (l0 : Vec Ideal S1024x1 .i32) (l1 : Vec Ideal S1x1024 .i32) (xs0 : Vec Ideal S1x2 .f32) :
    sout0_C_0 (F := Ideal) c i arg2 harg2 arg3 harg3 arg4 harg4 arg5 harg5 arg6 harg6 arg7 harg7 hc0 hc1 x0 x1 l0 l1 xs0 (ix2 (0 : Fin 1) (1 : Fin 2))
      = xs0 (ix2 (0 : Fin 1) (1 : Fin 2)) + (totSum (x0 : Tab 1024) (x1 : Tab 1024) - sameSum (x0 : Tab 1024) (x1 : Tab 1024) (fun p : Fin 1024 => l0 (ix2 p (0 : Fin 1))) (fun q : Fin 1024 => l1 (ix2 (0 : Fin 1) q))) := by
  rw [cellC_01 (F := Ideal) c i arg2 harg2 arg3 harg3 arg4 harg4 arg5 harg5 arg6 harg6 arg7 harg7 hc0 hc1 x0 x1 l0 l1 xs0, pay3_eq, pay8_eq, pay1_pay7_eq]
/-- … and stores the loss of the two updated cells into the result block. -/
theorem outC_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : ¬cond0_0 i) (hc1 : cond0_1 i) (x0 : Vec Ideal S1024x128 .f32) (x1 : Vec Ideal S1024x128 .f32) (l0 : Vec Ideal S1024x1 .i32) (l1 : Vec Ideal S1x1024 .i32) (xs0 : Vec Ideal S1x2 .f32) :
    out0_C_4 (F := Ideal) c i arg2 harg2 arg3 harg3 arg4 harg4 arg5 harg5 arg6 harg6 arg7 harg7 hc0 hc1 x0 x1 l0 l1 xs0 (ix2 (0 : Fin 1) (0 : Fin 1))
      = loss (xs0 (ix2 (0 : Fin 1) (0 : Fin 2)) + sameSum (x0 : Tab 1024) (x1 : Tab 1024) (fun p : Fin 1024 => l0 (ix2 p (0 : Fin 1))) (fun q : Fin 1024 => l1 (ix2 (0 : Fin 1) q)))
          (xs0 (ix2 (0 : Fin 1) (1 : Fin 2)) + (totSum (x0 : Tab 1024) (x1 : Tab 1024) - sameSum (x0 : Tab 1024) (x1 : Tab 1024) (fun p : Fin 1024 => l0 (ix2 p (0 : Fin 1))) (fun q : Fin 1024 => l1 (ix2 (0 : Fin 1) q)))) := by
  rw [cellO_00 (F := Ideal) c i arg2 harg2 arg3 harg3 arg4 harg4 arg5 harg5 arg6 harg6 arg7 harg7 hc0 hc1 x0 x1 l0 l1 xs0, pay4_eq, accC_00 c i arg2 harg2 arg3 harg3 arg4 harg4 arg5 harg5 arg6 harg6 arg7 harg7 hc0 hc1 x0 x1 l0 l1 xs0, accC_01 c i arg2 harg2 arg3 harg3 arg4 harg4 arg5 harg5 arg6 harg6 arg7 harg7 hc0 hc1 x0 x1 l0 l1 xs0]

/-- The first run starts both cells at zero. -/
theorem accA_00 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec Ideal S1024x128 .f32) (x1 : Vec Ideal S1024x128 .f32) (l0 : Vec Ideal S1024x1 .i32) (l1 : Vec Ideal S1x1024 .i32) :
    sout0_A_0 (F := Ideal) c i arg2 harg2 arg3 harg3 arg4 harg4 arg5 harg5 arg6 harg6 arg7 harg7 hc0 hc1 x0 x1 l0 l1 (ix2 (0 : Fin 1) (0 : Fin 2)) = ZERO + sameSum (x0 : Tab 1024) (x1 : Tab 1024) (fun p : Fin 1024 => l0 (ix2 p (0 : Fin 1))) (fun q : Fin 1024 => l1 (ix2 (0 : Fin 1) q)) := by
  rw [cellA_00 (F := Ideal) c i arg2 harg2 arg3 harg3 arg4 harg4 arg5 harg5 arg6 harg6 arg7 harg7 hc0 hc1 x0 x1 l0 l1, pay2_eq, pay5_eq, pay1_pay7_eq]
theorem accA_01 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x2 .f32) (harg7 : arg7.IsWhole) (hc0 : cond0_0 i) (hc1 : ¬cond0_1 i) (x0 : Vec Ideal S1024x128 .f32) (x1 : Vec Ideal S1024x128 .f32) (l0 : Vec Ideal S1024x1 .i32) (l1 : Vec Ideal S1x1024 .i32) :
    sout0_A_0 (F := Ideal) c i arg2 harg2 arg3 harg3 arg4 harg4 arg5 harg5 arg6 harg6 arg7 harg7 hc0 hc1 x0 x1 l0 l1 (ix2 (0 : Fin 1) (1 : Fin 2)) = ZERO + (totSum (x0 : Tab 1024) (x1 : Tab 1024) - sameSum (x0 : Tab 1024) (x1 : Tab 1024) (fun p : Fin 1024 => l0 (ix2 p (0 : Fin 1))) (fun q : Fin 1024 => l1 (ix2 (0 : Fin 1) q))) := by
  rw [cellA_01 (F := Ideal) c i arg2 harg2 arg3 harg3 arg4 harg4 arg5 harg5 arg6 harg6 arg7 harg7 hc0 hc1 x0 x1 l0 l1, pay3_eq, pay5_eq, pay8_eq, pay1_pay7_eq]

end Cert.KernelIdeal.Hand

end
-- ==== Proof.KI.Blocks.lean ====
/-
  The windows' blocks are the row blocks and label blocks of the specification.

  The grid is 8 × 8 and point `t` has coordinates `(t / 8, t % 8)`.  The first two windows cut the same table of 8192
  rows into blocks of 1024 rows, the first by the point's first coordinate and the second by its second; the third and
  fourth cut the labels, laid out as a column and as a row, the same two ways.  A block's coordinate in its array is
  always the block index times the block's extent plus the coordinate inside the block, so with the block indices in
  closed form each block read off the array is `rowBlk` / `labBlk` at `t / 8` resp. `t % 8`.  Last, the two reshapes
  of the label vector into that column and that row read the vector back at the long coordinate.
-/
import proofs.«166508_j35665408426430_1_alg».proof.Proof.KI.Data
import proofs.«166508_j35665408426430_1_alg».proof.Proof.Spec
import proofs.«166508_j35665408426430_1_alg».proof.Proof.Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Metric Idealize.ShloMosaic.ValueIdx

variable {F : FTy → Type} [FloatOps F]

/-- Each window's block index at grid point `t`, in closed form: decided over the 64 points. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- A grid point as a number below 64. -/
def pt (t : Fin cfg0.N) : Fin 64 := ⟨t.val, lt_of_lt_of_eq t.isLt N_0⟩

/-- The row block of a point is its number divided by 8 … -/
theorem gi_pt_val (t : Fin cfg0.N) : (gi (pt t)).val = t.val / 8 := rfl
/-- … and its column block the remainder. -/
theorem gj_pt_val (t : Fin cfg0.N) : (gj (pt t)).val = t.val % 8 := rfl

section Blocks
variable (V : (c : Dev nD) → (b : Ref sig .tc) → Buf (Elt Ideal) ((c : Thread nD τ).loc b))

/-- The first window holds the rows of the point's row block. -/
theorem iblk0_eq (c : Dev nD) (t : Fin cfg0.N) :
    (iblk (F := Ideal) V c 0 t : Tab 1024) = rowBlk (V c main_arg0 : Tab 8192) (gi (pt t)) := by
  obtain ⟨e0, e1, -⟩ := idx_facts t
  funext j
  show V c main_arg0 (((cfg0.win 0).blk t).view.emb j) = rowBlk (V c main_arg0) (gi (pt t)) j
  unfold rowBlk
  refine congrArg (V c main_arg0) (funext fun a => Fin.ext ?_)
  match a with
  | ⟨0, _⟩ =>
    show win0_0.index t (0 : Fin 2) * 1024 + 1 * (j 0).val = (gi (pt t)).val * 1024 + (j 0).val
    rw [gi_pt_val]; omega
  | ⟨1, _⟩ =>
    show win0_0.index t (1 : Fin 2) * 128 + 1 * (j 1).val = (j 1).val
    omega

/-- The second window holds the rows of the point's column block, of the same array. -/
theorem iblk1_eq (c : Dev nD) (t : Fin cfg0.N) :
    (iblk (F := Ideal) V c 1 t : Tab 1024) = rowBlk (V c main_arg0 : Tab 8192) (gj (pt t)) := by
  obtain ⟨-, -, e0, e1, -⟩ := idx_facts t
  funext j
  show V c main_arg0 (((cfg0.win 1).blk t).view.emb j) = rowBlk (V c main_arg0) (gj (pt t)) j
  unfold rowBlk
  refine congrArg (V c main_arg0) (funext fun a => Fin.ext ?_)
  match a with
  | ⟨0, _⟩ =>
    show win0_1.index t (0 : Fin 2) * 1024 + 1 * (j 0).val = (gj (pt t)).val * 1024 + (j 0).val
    rw [gj_pt_val]; omega
  | ⟨1, _⟩ =>
    show win0_1.index t (1 : Fin 2) * 128 + 1 * (j 1).val = (j 1).val
    omega

/-- The third window holds, as a column, the labels of the point's row block. -/
theorem iblk2_lab (c : Dev nD) (t : Fin cfg0.N) (lab : Fin 8192 → BitVec 32)
    (h : ∀ P : Fin 8192, V c main_v0 (ix2 P (0 : Fin 1)) = lab P) :
    (fun p : Fin 1024 => iblk (F := Ideal) V c 2 t (ix2 p (0 : Fin 1))) = labBlk lab (gi (pt t)) := by
  obtain ⟨-, -, -, -, e0, e1, -⟩ := idx_facts t
  funext p
  show V c main_v0 (((cfg0.win 2).blk t).view.emb (ix2 p (0 : Fin 1))) = labBlk lab (gi (pt t)) p
  unfold labBlk
  refine Eq.trans (congrArg (V c main_v0) (funext fun a => Fin.ext ?_)) (h _)
  match a with
  | ⟨0, _⟩ =>
    show win0_2.index t (0 : Fin 2) * 1024 + 1 * p.val = (gi (pt t)).val * 1024 + p.val
    rw [gi_pt_val]; omega
  | ⟨1, _⟩ =>
    show win0_2.index t (1 : Fin 2) * 1 + 1 * 0 = 0
    omega

/-- The fourth window holds, as a row, the labels of the point's column block. -/
theorem iblk3_lab (c : Dev nD) (t : Fin cfg0.N) (lab : Fin 8192 → BitVec 32)
    (h : ∀ P : Fin 8192, V c main_v1 (ix2 (0 : Fin 1) P) = lab P) :
    (fun q : Fin 1024 => iblk (F := Ideal) V c 3 t (ix2 (0 : Fin 1) q)) = labBlk lab (gj (pt t)) := by
  obtain ⟨-, -, -, -, -, -, e0, e1⟩ := idx_facts t
  funext q
  show V c main_v1 (((cfg0.win 3).blk t).view.emb (ix2 (0 : Fin 1) q)) = labBlk lab (gj (pt t)) q
  unfold labBlk
  refine Eq.trans (congrArg (V c main_v1) (funext fun a => Fin.ext ?_)) (h _)
  match a with
  | ⟨0, _⟩ =>
    show win0_3.index t (0 : Fin 2) * 1 + 1 * 0 = 0
    omega
  | ⟨1, _⟩ =>
    show win0_3.index t (1 : Fin 2) * 1024 + 1 * q.val = (gj (pt t)).val * 1024 + q.val
    rw [gj_pt_val]; omega

end Blocks

/-! ## The host's two reshapes of the label vector -/

/-- The labels as a column: entry `(P, 0)` is label `P`. -/
theorem cast_col (l : Vec F S8192 .i32) (P : Fin 8192) :
    shapeCast S8192x1 l shapeCasts_S8192_S8192x1 (ix2 P (0 : Fin 1)) = l (ix1 P) :=
  Cert.Metric.Payload.shapeCast_a_a1_apply l shapeCasts_S8192_S8192x1 P (0 : Fin 1)

/-- The labels as a row: entry `(0, P)` is label `P`. -/
theorem cast_row (l : Vec F S8192 .i32) (P : Fin 8192) :
    shapeCast S1x8192 l shapeCasts_S8192_S1x8192 (ix2 (0 : Fin 1) P) = l (ix1 P) :=
  shapeCast_a_1a_apply l shapeCasts_S8192_S1x8192 (0 : Fin 1) P

end Cert.KernelIdeal.Hand

end
-- ==== Proof.KI.Result.lean ====
/-
  The result array after the run.

  The result window's block is the whole [1,1] array at every grid point, and only the last point, point 63, writes it
  back.  So after the run the array's one entry is the (0,0) entry of what the body left in the block at point 63: the
  constant function at that entry is a whole-array function of which the one written block is the restriction, and the
  one written block covers the array.  Re-laid as a scalar, a constant [1,1] vector is the same constant.
-/
import proofs.«166508_j35665408426430_1_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The last grid point. -/
def t63 : Fin cfg0.N := ⟨63, by have h : cfg0.N = 64 := N_0; omega⟩

theorem t63_val : t63.val = 63 := rfl

/-- A [1,1] array has one index, (0,0). -/
theorem idx_S1x1 (j : S1x1.Idx) : j = ix2 (0 : Fin 1) (0 : Fin 1) := by
  funext a
  apply Fin.ext
  match a with
  | ⟨0, _⟩ => have h := idx2_lt0 j; show (j 0).val = 0; omega
  | ⟨1, _⟩ => have h := idx2_lt1 j; show (j 1).val = 0; omega

/-- The result window's block index is (0,0) at every grid point. -/
theorem blk_index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- An index of the array is in point `t`'s block iff each coordinate is in the block's range on its axis. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v2).slice (win0_4.rect t)).set ↔ _
  rw [View.set_slice_whole, Rect.mem_set_unit]
  exact Iff.rfl

/-- Every index of the array is in the block the last point writes back. -/
theorem cover4 (i : S1x1.Idx) : ∃ t : Fin cfg0.N, (cfg0.win 4).flush t = true ∧ i ∈ ((cfg0.win 4).blk t).view.set := by
  refine ⟨t63, (flush0_4 t63).mpr (by show (63 : ℕ) % 64 = 63; rfl), ?_⟩
  rw [mem_blk4]
  obtain ⟨e0, e1⟩ := blk_index4 t63
  intro a
  match a with
  | ⟨0, _⟩ =>
    show win0_4.index t63 (0 : Fin 2) * 1 ≤ (i 0).val ∧ (i 0).val < win0_4.index t63 (0 : Fin 2) * 1 + 1
    have h := idx2_lt0 i; omega
  | ⟨1, _⟩ =>
    show win0_4.index t63 (1 : Fin 2) * 1 ≤ (i 1).val ∧ (i 1).val < win0_4.index t63 (1 : Fin 2) * 1 + 1
    have h := idx2_lt1 i; omega

section Region
variable (V : (c : Dev nD) → (b : Ref sig .tc) → Buf (Elt F) ((c : Thread nD τ).loc b))

/-- What a point that writes the block back writes is the block of the constant array: such a point is point 63, and
    the block has the one index (0,0). -/
theorem flushed4_eq (c : Dev nD) (t : Fin cfg0.N) (hf : (cfg0.win 4).flush t = true) :
    (dat0 V c).flushed 4 t
      = ((cfg0.win 4).blk t).view.read (Elt F) (fun _ => outAt V c t63 (ix2 (0 : Fin 1) (0 : Fin 1))) := by
  have ht : t = t63 := Fin.ext (by
    have h1 := (flush0_4 t).mp hf; have h2 := lt64 t.isLt; show t.val = 63; omega)
  subst ht
  show (cfg0.win 4).cut (grid0.coords t63) ((dat0 V c).after 4 t63) = _
  rw [after0_4]
  funext j
  exact congrArg (outAt V c t63) (idx_S1x1 _)

/-- THE RESULT ARRAY after the run: everywhere the (0,0) entry of what the last point's body left in the block. -/
theorem res_eq (c : Dev nD) :
    (dat0 V c).arrAt 4 cfg0.N = fun _ => outAt V c t63 (ix2 (0 : Fin 1) (0 : Fin 1)) :=
  (dat0 V c).arrAt_eq_of_cover 4 _ (fun t hf => flushed4_eq V c t hf) cover4

end Region

/-- The [1,1] → scalar re-lay of a constant vector is the constant. -/
theorem shapeCast_const (v : Elt F .f32) :
    shapeCast S_ (fun _ : S1x1.Idx => v) shapeCasts_S1x1_S_ = fun _ => v := by
  funext j
  unfold shapeCast
  rfl

end Cert.KernelIdeal.Hand

end
-- ==== Proof.Algebra.lean ====
/-
  The regrouping algebra of the loss.

  A table of 8192 rows is eight blocks of 1024 rows: row `p` of block `i` is row `1024·i + p`, and this is a
  bijection of `Fin 8 × Fin 1024` onto `Fin 8192`; a grid of 64 points walks the 8 × 8 pairs of blocks through
  `t ↦ (t / 8, t % 8)`, a bijection of `Fin 64` onto `Fin 8 × Fin 8`.  A sum over all pairs of rows is therefore the
  sum, over the grid points, of the sums over the pairs of rows of the two blocks of the point: a re-indexing of finite
  sums in a commutative monoid, with no finiteness needed (`sum_blocks_same`, `sum_blocks_diff`).

  "All pairs minus equal-label pairs is different-label pairs" is an identity of real numbers, and fails on the extended
  reals at an infinity; with every entry of the two tables real, every squared norm, inner product and clamped squared
  distance is real, the three sums are casts of real sums, and the identity is read off there (`tot_sub_same`).
-/
import proofs.«166508_j35665408426430_1_alg».proof.Proof.Spec
import Idealize.ShloMosaic.PureOps.Ideal.Laws

noncomputable section

open scoped BigOperators

namespace Cert.Metric

open Idealize.ShloMosaic Idealize.ShloMosaic.ValueIdx

/-! ## Blocks of rows and the grid, as bijections -/

/-- Row `p` of block `i`: row `1024·i + p` of the whole table. -/
def blk (i : Fin 8) (p : Fin 1024) : Fin 8192 :=
  ⟨i.val * 1024 + p.val, by have := p.isLt; have := i.isLt; omega⟩

/-- (block, row in the block) ↦ row: quotient and remainder by 1024 invert it. -/
def blkEquiv : Fin 8 × Fin 1024 ≃ Fin 8192 where
  toFun ip := blk ip.1 ip.2
  invFun P := (⟨P.val / 1024, by have := P.isLt; omega⟩, ⟨P.val % 1024, by omega⟩)
  left_inv ip := by
    obtain ⟨i, p⟩ := ip
    have := p.isLt
    refine Prod.ext (Fin.ext ?_) (Fin.ext ?_)
    · show (i.val * 1024 + p.val) / 1024 = i.val
      omega
    · show (i.val * 1024 + p.val) % 1024 = p.val
      omega
  right_inv P := Fin.ext (by
    show P.val / 1024 * 1024 + P.val % 1024 = P.val
    omega)

/-- A sum over the rows is the sum over the blocks of the sums over each block's rows. -/
theorem sum_blk {M : Type*} [AddCommMonoid M] (f : Fin 8192 → M) :
    ∑ i : Fin 8, ∑ p : Fin 1024, f (blk i p) = ∑ P : Fin 8192, f P := by
  rw [← Equiv.sum_comp blkEquiv f, Fintype.sum_prod_type]
  rfl

/-- Grid point ↦ (row block, column block): `(i, j) ↦ 8·i + j` inverts it. -/
def gridEquiv : Fin 64 ≃ Fin 8 × Fin 8 where
  toFun t := (gi t, gj t)
  invFun ij := ⟨ij.1.val * 8 + ij.2.val, by have := ij.1.isLt; have := ij.2.isLt; omega⟩
  left_inv t := Fin.ext (by
    show t.val / 8 * 8 + t.val % 8 = t.val
    omega)
  right_inv ij := by
    obtain ⟨i, j⟩ := ij
    have := j.isLt
    refine Prod.ext (Fin.ext ?_) (Fin.ext ?_)
    · show (i.val * 8 + j.val) / 8 = i.val
      omega
    · show (i.val * 8 + j.val) % 8 = j.val
      omega

/-- A sum over the grid points is the double sum over the pairs of blocks. -/
theorem sum_grid {M : Type*} [AddCommMonoid M] (g : Fin 8 → Fin 8 → M) :
    ∑ t : Fin 64, g (gi t) (gj t) = ∑ i : Fin 8, ∑ j : Fin 8, g i j := by
  rw [← Fintype.sum_prod_type' g, ← Equiv.sum_comp gridEquiv]
  rfl

/-- Over the grid, the sums over the pairs of rows of the two blocks of a point add up to the sum over all pairs of
    rows. -/
theorem sum_blocks {M : Type*} [AddCommMonoid M] (F : Fin 8192 → Fin 8192 → M) :
    ∑ t : Fin 64, ∑ p : Fin 1024, ∑ q : Fin 1024, F (blk (gi t) p) (blk (gj t) q)
      = ∑ P : Fin 8192, ∑ Q : Fin 8192, F P Q := by
  refine (sum_grid (fun i j => ∑ p : Fin 1024, ∑ q : Fin 1024, F (blk i p) (blk j q))).trans ?_
  refine Eq.trans ?_ (sum_blk (fun P => ∑ Q : Fin 8192, F P Q))
  refine Finset.sum_congr rfl fun i _ => ?_
  rw [Finset.sum_comm]
  refine Finset.sum_congr rfl fun p _ => ?_
  exact sum_blk (fun Q => F (blk i p) Q)

/-! ## The blocks' distances and labels are the table's -/

/-- The clamped squared distance of row `p` of block `i` and row `q` of block `j` is that of the two rows of the table. -/
theorem d2_rowBlk (x : Tab 8192) (i j : Fin 8) (p q : Fin 1024) :
    d2 (rowBlk x i) (rowBlk x j) p q = d2 x x (blk i p) (blk j q) := rfl

/-- Label `p` of block `i` is the label of the table's row. -/
theorem labBlk_apply (l : Fin 8192 → BitVec 32) (i : Fin 8) (p : Fin 1024) : labBlk l i p = l (blk i p) := rfl

theorem sum_blocks_same (x : Tab 8192) (l : Fin 8192 → BitVec 32) :
    ∑ t : Fin 64, sameSum (rowBlk x (gi t)) (rowBlk x (gj t)) (labBlk l (gi t)) (labBlk l (gj t)) = sameSum x x l l :=
  sum_blocks (fun P Q => if l P = l Q then d2 x x P Q else ZERO)

theorem sum_blocks_diff (x : Tab 8192) (l : Fin 8192 → BitVec 32) :
    ∑ t : Fin 64, diffSum (rowBlk x (gi t)) (rowBlk x (gj t)) (labBlk l (gi t)) (labBlk l (gj t)) = diffSum x x l l :=
  sum_blocks (fun P Q => if l P = l Q then ZERO else d2 x x P Q)

/-- A block of a table of reals is a table of reals. -/
theorem allReal_rowBlk {x : Tab 8192} (hx : AllReal x) (i : Fin 8) : AllReal (rowBlk x i) := fun _ => hx _

/-! ## Reals among the extended reals -/

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_add {u v : EReal} (hu : ∃ r : ℝ, u = r) (hv : ∃ r : ℝ, v = r) : ∃ r : ℝ, u + v = r := by
  obtain ⟨a, rfl⟩ := hu
  obtain ⟨b, rfl⟩ := hv
  exact ⟨a + b, (EReal.coe_add a b).symm⟩

theorem real_sub {u v : EReal} (hu : ∃ r : ℝ, u = r) (hv : ∃ r : ℝ, v = r) : ∃ r : ℝ, u - v = r := by
  obtain ⟨a, rfl⟩ := hu
  obtain ⟨b, rfl⟩ := hv
  exact ⟨a - b, (EReal.coe_sub a b).symm⟩

theorem real_mul {u v : EReal} (hu : ∃ r : ℝ, u = r) (hv : ∃ r : ℝ, v = r) : ∃ r : ℝ, u * v = r := by
  obtain ⟨a, rfl⟩ := hu
  obtain ⟨b, rfl⟩ := hv
  exact ⟨a * b, (EReal.coe_mul a b).symm⟩

theorem real_max {u v : EReal} (hu : ∃ r : ℝ, u = r) (hv : ∃ r : ℝ, v = r) : ∃ r : ℝ, max u v = r := by
  rcases le_total u v with h | h
  · rw [max_eq_right h]
    exact hv
  · rw [max_eq_left h]
    exact hu

theorem real_sum {ι : Type*} (s : Finset ι) (f : ι → EReal) (h : ∀ i, ∃ r : ℝ, f i = r) :
    ∃ r : ℝ, ∑ i ∈ s, f i = r := by
  choose g hg using h
  exact ⟨∑ i ∈ s, g i, by rw [coe_sum]; exact Finset.sum_congr rfl fun i _ => hg i⟩

/-- The word of zero is the real 0 … -/
theorem zero_real : ZERO = ((0 : ℝ) : EReal) := by
  show Ideal.ofBits .f32 0x00000000#32 = _
  rw [Ideal.ofBits_zero_f32, EReal.coe_zero]

/-- … and the word of two is a real: its exponent field is not all ones. -/
theorem two_real : ∃ r : ℝ, TWO = r := by
  show ∃ r : ℝ, Ideal.ieee 8 23 (0x40000000#32 : BitVec 32) = r
  unfold Ideal.ieee
  simp only []
  rw [if_neg (by decide), if_neg (by decide)]
  exact ⟨_, rfl⟩

/-- Between rows of reals the clamped squared distance is a real. -/
theorem d2_real {a b : Nat} (x : Tab a) (y : Tab b) (hx : AllReal x) (hy : AllReal y) (p : Fin a) (q : Fin b) :
    ∃ r : ℝ, d2 x y p q = r := by
  have hsx : ∃ r : ℝ, sq x p = r := real_sum _ _ fun k => real_mul (hx _) (hx _)
  have hsy : ∃ r : ℝ, sq y q = r := real_sum _ _ fun k => real_mul (hy _) (hy _)
  have hg : ∃ r : ℝ, gram x y p q = r := real_sum _ _ fun k => real_mul (hx _) (hy _)
  exact real_max (real_sub (real_add hsx hsy) (real_mul two_real hg)) ⟨0, zero_real⟩

/-! ## All pairs minus equal-label pairs -/

theorem tot_sub_same {a b : Nat} (x : Tab a) (y : Tab b) (l : Fin a → BitVec 32) (l' : Fin b → BitVec 32)
    (hx : AllReal x) (hy : AllReal y) : totSum x y - sameSum x y l l' = diffSum x y l l' := by
  have hd : ∀ p q, ∃ r : ℝ, d2 x y p q = r := fun p q => d2_real x y hx hy p q
  choose D hD using hd
  have ht : totSum x y = ((∑ p : Fin a, ∑ q : Fin b, D p q : ℝ) : EReal) := by
    simp only [totSum, hD, coe_sum]
  have hs : sameSum x y l l' = ((∑ p : Fin a, ∑ q : Fin b, (if l p = l' q then D p q else 0) : ℝ) : EReal) := by
    simp only [sameSum, hD, zero_real, coe_sum, apply_ite (fun r : ℝ => (r : EReal))]
  have hf : diffSum x y l l' = ((∑ p : Fin a, ∑ q : Fin b, (if l p = l' q then 0 else D p q) : ℝ) : EReal) := by
    simp only [diffSum, hD, zero_real, coe_sum, apply_ite (fun r : ℝ => (r : EReal))]
  rw [ht, hs, hf, ← EReal.coe_sub, ← Finset.sum_sub_distrib]
  refine congrArg _ (Finset.sum_congr rfl fun p _ => ?_)
  rw [← Finset.sum_sub_distrib]
  refine Finset.sum_congr rfl fun q _ => ?_
  split_ifs
  · exact sub_self _
  · exact sub_zero _

end Cert.Metric

end
-- ==== Proof.KI.Value.lean ====
/-
  The kernel's scalar result as mathematics, at the ideal instance.

  Write `x` for the first argument array (8192 rows of 128 extended reals) and `lab` for the 8192 labels.  Grid point
  `s` (row block `s / 8` against row block `s % 8`) adds to the accumulator's first cell the equal-label sum `Sn s` of
  its pair of blocks and to the second cell the all-pairs sum minus the equal-label sum, which — every entry being a
  real number — is the different-label sum `Dn s`.  So after point `n` the cells hold `0 + Σ_{s ≤ n} Sn s` and
  `0 + Σ_{s ≤ n} Dn s` (induction on the point).  The sixty-four block sums regroup into the sums over all pairs of
  rows, and the last point stores the loss of the two totals, which the closing reshape hands on as the scalar result.
-/
import proofs.«166508_j35665408426430_1_alg».proof.Proof.KI.Seg
import proofs.«166508_j35665408426430_1_alg».proof.Proof.KI.Cells
import proofs.«166508_j35665408426430_1_alg».proof.Proof.KI.Blocks
import proofs.«166508_j35665408426430_1_alg».proof.Proof.KI.Result
import proofs.«166508_j35665408426430_1_alg».proof.Proof.Algebra

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Metric Idealize.ShloMosaic.ValueIdx
open scoped BigOperators

variable (m : (ℓ : Loc nD τ sig) → Buf (Elt Ideal) ℓ) (ρ : Dev nD → PrngReg) (c : Dev nD)

/-- The first argument array as a table, and the labels. -/
abbrev xT : Tab 8192 := m ((c : Thread nD τ).loc main_arg0)
abbrev lab : Fin 8192 → BitVec 32 := fun P => m ((c : Thread nD τ).loc main_arg1) (ix1 P)

/-- The equal-label sum and the different-label sum of grid point `s`'s pair of row blocks. -/
def Sn (s : ℕ) : EReal :=
  if h : s < 64 then sameSum (rowBlk (xT m c) (gi ⟨s, h⟩)) (rowBlk (xT m c) (gj ⟨s, h⟩)) (labBlk (lab m c) (gi ⟨s, h⟩)) (labBlk (lab m c) (gj ⟨s, h⟩)) else 0
def Dn (s : ℕ) : EReal :=
  if h : s < 64 then diffSum (rowBlk (xT m c) (gi ⟨s, h⟩)) (rowBlk (xT m c) (gj ⟨s, h⟩)) (labBlk (lab m c) (gi ⟨s, h⟩)) (labBlk (lab m c) (gj ⟨s, h⟩)) else 0

theorem lab_col (P : Fin 8192) : V1 m ρ c main_v0 (ix2 P (0 : Fin 1)) = lab m c P := by
  rw [V1_v0]; exact cast_col _ P
theorem lab_row (P : Fin 8192) : V1 m ρ c main_v1 (ix2 (0 : Fin 1) P) = lab m c P := by
  rw [V1_v1]; exact cast_row _ P

/-- The equal-label sum of the blocks the four input windows hold at point `t`. -/
theorem blkS (t : Fin cfg0.N) :
    sameSum (iblk (F := Ideal) (V1 m ρ) c 0 t : Tab 1024) (iblk (F := Ideal) (V1 m ρ) c 1 t : Tab 1024)
      (fun p : Fin 1024 => iblk (F := Ideal) (V1 m ρ) c 2 t (ix2 p (0 : Fin 1))) (fun q : Fin 1024 => iblk (F := Ideal) (V1 m ρ) c 3 t (ix2 (0 : Fin 1) q))
      = Sn m c t.val := by
  rw [iblk0_eq, iblk1_eq, iblk2_lab (V1 m ρ) c t (lab m c) (lab_col m ρ c), iblk3_lab (V1 m ρ) c t (lab m c) (lab_row m ρ c), V1_arg0]
  unfold Sn; rw [dif_pos (lt64 t.isLt)]; rfl

/-- All pairs less the equal-label pairs are the different-label pairs, every entry being real. -/
theorem blkD (hx : AllReal (xT m c)) (t : Fin cfg0.N) :
    totSum (iblk (F := Ideal) (V1 m ρ) c 0 t : Tab 1024) (iblk (F := Ideal) (V1 m ρ) c 1 t : Tab 1024)
      - sameSum (iblk (F := Ideal) (V1 m ρ) c 0 t : Tab 1024) (iblk (F := Ideal) (V1 m ρ) c 1 t : Tab 1024)
        (fun p : Fin 1024 => iblk (F := Ideal) (V1 m ρ) c 2 t (ix2 p (0 : Fin 1))) (fun q : Fin 1024 => iblk (F := Ideal) (V1 m ρ) c 3 t (ix2 (0 : Fin 1) q))
      = Dn m c t.val := by
  rw [iblk0_eq, iblk1_eq, iblk2_lab (V1 m ρ) c t (lab m c) (lab_col m ρ c), iblk3_lab (V1 m ρ) c t (lab m c) (lab_row m ρ c), V1_arg0,
    tot_sub_same _ _ _ _ (allReal_rowBlk hx _) (allReal_rowBlk hx _)]
  unfold Dn; rw [dif_pos (lt64 t.isLt)]; rfl

/-- THE ACCUMULATOR after point `n`: both cells, by induction on the point. -/
theorem acc_cells (hx : AllReal (xT m c)) : ∀ (n : ℕ) (hn : n < cfg0.N),
    accAt (F := Ideal) (V1 m ρ) c n hn (ix2 (0 : Fin 1) (0 : Fin 2)) = ZERO + ∑ s ∈ Finset.range (n + 1), Sn m c s
    ∧ accAt (F := Ideal) (V1 m ρ) c n hn (ix2 (0 : Fin 1) (1 : Fin 2)) = ZERO + ∑ s ∈ Finset.range (n + 1), Dn m c s
  | 0, hn => by
    constructor
    · refine (congrFun (accAt_A (V1 m ρ) c ⟨0, hn⟩ rfl) _).trans ?_
      rw [accA_00, blkS, Finset.sum_range_one]
    · refine (congrFun (accAt_A (V1 m ρ) c ⟨0, hn⟩ rfl) _).trans ?_
      rw [accA_01, blkD m ρ c hx, Finset.sum_range_one]
  | n + 1, hn => by
    have ih := acc_cells hx n (Nat.lt_of_succ_lt hn)
    by_cases h1 : n + 1 = 63
    · constructor
      · refine (congrFun (accAt_C (V1 m ρ) c ⟨n + 1, hn⟩ (Nat.succ_ne_zero n) h1) _).trans ?_
        rw [accC_00, blkS, Finset.sum_range_succ _ (n + 1), ← add_assoc]
        exact congrArg (· + Sn m c (n + 1)) ih.1
      · refine (congrFun (accAt_C (V1 m ρ) c ⟨n + 1, hn⟩ (Nat.succ_ne_zero n) h1) _).trans ?_
        rw [accC_01, blkD m ρ c hx, Finset.sum_range_succ _ (n + 1), ← add_assoc]
        exact congrArg (· + Dn m c (n + 1)) ih.2
    · constructor
      · refine (congrFun (accAt_B (V1 m ρ) c ⟨n + 1, hn⟩ (Nat.succ_ne_zero n) h1) _).trans ?_
        rw [accB_00, blkS, Finset.sum_range_succ _ (n + 1), ← add_assoc]
        exact congrArg (· + Sn m c (n + 1)) ih.1
      · refine (congrFun (accAt_B (V1 m ρ) c ⟨n + 1, hn⟩ (Nat.succ_ne_zero n) h1) _).trans ?_
        rw [accB_01, blkD m ρ c hx, Finset.sum_range_succ _ (n + 1), ← add_assoc]
        exact congrArg (· + Dn m c (n + 1)) ih.2

/-- The sixty-four block sums are the sums over all pairs of rows. -/
theorem sum_S : ZERO + ∑ s ∈ Finset.range 64, Sn m c s = sameSum (xT m c) (xT m c) (lab m c) (lab m c) := by
  rw [show (ZERO : EReal) = 0 from Ideal.ofBits_zero_f32, zero_add, Finset.sum_range, ← sum_blocks_same (xT m c) (lab m c)]
  refine Finset.sum_congr rfl fun t _ => ?_
  unfold Sn; rw [dif_pos t.isLt]
theorem sum_D : ZERO + ∑ s ∈ Finset.range 64, Dn m c s = diffSum (xT m c) (xT m c) (lab m c) (lab m c) := by
  rw [show (ZERO : EReal) = 0 from Ideal.ofBits_zero_f32, zero_add, Finset.sum_range, ← sum_blocks_diff (xT m c) (lab m c)]
  refine Finset.sum_congr rfl fun t _ => ?_
  unfold Dn; rw [dif_pos t.isLt]

/-- THE KERNEL'S RESULT: the loss of the two sums over all pairs of rows. -/
theorem kernel_value (hx : AllReal (xT m c)) :
    shapeCast S_ ((dat0 (F := Ideal) (V1 m ρ) c).arrAt 4 cfg0.N) shapeCasts_S1x1_S_
      = fun _ => loss (sameSum (xT m c) (xT m c) (lab m c) (lab m c)) (diffSum (xT m c) (xT m c) (lab m c) (lab m c)) := by
  rw [res_eq]
  refine (shapeCast_const (F := Ideal) (outAt (F := Ideal) (V1 m ρ) c t63 (ix2 (0 : Fin 1) (0 : Fin 1)))).trans ?_
  refine funext fun _ => ?_
  have h62 := acc_cells m ρ c hx 62 (by rw [show cfg0.N = 64 from N_0]; omega)
  rw [outAt_C (V1 m ρ) c t63 rfl, outC_00, blkD m ρ c hx, blkS]
  have e0 : accAt (F := Ideal) (V1 m ρ) c (t63.val - 1) (Nat.lt_of_le_of_lt (Nat.sub_le _ _) t63.isLt) (ix2 (0 : Fin 1) (0 : Fin 2))
      = ZERO + ∑ s ∈ Finset.range 63, Sn m c s := h62.1
  have e1 : accAt (F := Ideal) (V1 m ρ) c (t63.val - 1) (Nat.lt_of_le_of_lt (Nat.sub_le _ _) t63.isLt) (ix2 (0 : Fin 1) (1 : Fin 2))
      = ZERO + ∑ s ∈ Finset.range 63, Dn m c s := h62.2
  rw [e0, e1, add_assoc, add_assoc, t63_val, ← Finset.sum_range_succ, ← Finset.sum_range_succ]
  exact congrArg₂ loss (sum_S m c) (sum_D m c)

end Cert.KernelIdeal.Hand

end
-- ==== Proof.RefValue.lean ====
/-
  The reference program's result, read as mathematics at the ideal instance.

  Each stage of the program is read at one index.  A row's squared norm is the sum of its entries' squares, the matrix
  product against the transposed table is the inner product of two rows, and the clamped expansion
  `max (|u|² + |v|² − 2 u·v) 0` of them is `d2`.  The two selections keep `d2` on the pairs of equal labels (of different
  labels) and put the zero word elsewhere; their sums over the whole square are the double sums `sameSum` and `diffSum`
  (the initial value of each sum is the zero word, which is the real number 0), and the last five operations are `loss`.
-/
import proofs.«166508_j35665408426430_1_alg».proof.Proof.Spec
import proofs.«166508_j35665408426430_1_alg».proof.Proof.Gen.ReferenceIdeal.Read

noncomputable section

open scoped BigOperators

namespace Cert.Metric.Ref

open Cert.ReferenceIdeal Cert.ReferenceIdeal.Gen Cert.ReferenceIdeal.Read Idealize.ShloMosaic Idealize.ShloMosaic.ValueIdx
open Cert.Metric

/-- The table argument's and the label argument's types. -/
abbrev XTy : Type := (⟨S8192x128, .f32⟩ : BufTy).Contents (Elt Ideal)
abbrev LTy : Type := (⟨S8192, .i32⟩ : BufTy).Contents (Elt Ideal)

/-- The table argument as a table of 8192 rows, and the label argument as a function of the row. -/
abbrev tab (x : XTy) : Tab 8192 := x
abbrev lab (l : LTy) : Fin 8192 → BitVec 32 := fun p : Fin 8192 => l (ix1 p)

/-- A select on "the two words are equal" is the `if` on their equality. -/
theorem select_cmpi_eq {α : Type} (a b : BitVec 32) (u v : α) :
    Scalar.select (IntOp.cmpi .eq a b) u v = if a = b then u else v := by
  have hc : IntOp.cmpi .eq a b = BitVec.ofBool (a == b) := rfl
  rw [hc]
  unfold Scalar.select
  by_cases h : a = b
  · rw [if_pos h, beq_iff_eq.mpr h]; exact if_pos rfl
  · rw [if_neg h, beq_eq_false_iff_ne.mpr h]; exact if_neg (by decide)

/-- The row sums of the squares: row `p`'s squared norm. -/
theorem sqnorm_apply (x : XTy) (p : Fin 8192) : val_main_v1 (F := Ideal) x (ix1 p) = sq (tab x) p := by
  rw [val_main_v1_apply, val_main_cst_apply, Ideal.ofBits_def, Ideal.ofBits_zero_f32, zero_add]
  unfold sq
  refine Finset.sum_congr rfl fun k _ => ?_
  have e : idx_main_v1 (ix1 p) k = ix2 p k :=
    funext fun a => Fin.ext (by match a with | ⟨0, _⟩ => rfl | ⟨1, _⟩ => rfl)
  rw [val_main_v0_apply, Ideal.mulf_def, e]

/-- The product with the transposed table: the inner product of rows `p` and `q`. -/
theorem gram_apply (x : XTy) (p q : Fin 8192) : val_main_v3 (F := Ideal) x (ix2 p q) = gram (tab x) (tab x) p q := by
  rw [val_main_v3_apply]
  unfold gram
  refine Finset.sum_congr rfl fun k _ => ?_
  have el : lidx_main_v3 (ix2 p q) k = ix2 p k :=
    funext fun a => Fin.ext (by match a with | ⟨0, _⟩ => rfl | ⟨1, _⟩ => rfl)
  have er : idx_main_v2 (ridx_main_v3 (ix2 p q) k) = ix2 q k :=
    funext fun a => Fin.ext (by match a with | ⟨0, _⟩ => rfl | ⟨1, _⟩ => rfl)
  rw [val_main_v2_apply, el, er]

/-- The clamped expansion at `(p, q)`. -/
theorem d2_apply (x : XTy) (p q : Fin 8192) : val_main_v13 (F := Ideal) x (ix2 p q) = d2 (tab x) (tab x) p q := by
  have e6 : idx_main_v4 (idx_main_v6 (ix2 p q)) = ix1 p :=
    funext fun a => Fin.ext (by match a with | ⟨0, _⟩ => rfl)
  have e7 : idx_main_v5 (idx_main_v7 (ix2 p q)) = ix1 q :=
    funext fun a => Fin.ext (by match a with | ⟨0, _⟩ => rfl)
  rw [val_main_v13_apply, val_main_v11_apply, val_main_v8_apply, val_main_v6_apply, val_main_v4_apply, val_main_v7_apply,
    val_main_v5_apply, val_main_v10_apply, val_main_v9_apply, val_main_cst_0_apply, val_main_v12_apply, val_main_cst_1_apply,
    e6, e7, sqnorm_apply, sqnorm_apply, gram_apply]
  rfl

/-- The comparison of the two broadcast label arrays at `(p, q)` compares labels `p` and `q`. -/
theorem same_apply (l : LTy) (p q : Fin 8192) :
    val_main_v18 (F := Ideal) l (ix2 p q) = IntOp.cmpi .eq (l (ix1 p)) (l (ix1 q)) := by
  have e16 : idx_main_v14 (idx_main_v16 (ix2 p q)) = ix1 p :=
    funext fun a => Fin.ext (by match a with | ⟨0, _⟩ => rfl)
  have e17 : idx_main_v15 (idx_main_v17 (ix2 p q)) = ix1 q :=
    funext fun a => Fin.ext (by match a with | ⟨0, _⟩ => rfl)
  rw [val_main_v18_apply, val_main_v16_apply, val_main_v14_apply, val_main_v17_apply, val_main_v15_apply, e16, e17]

/-- The first selection keeps `d2` on the pairs of equal labels. -/
theorem keep_same_apply (x : XTy) (l : LTy) (p q : Fin 8192) :
    val_main_v19 (F := Ideal) x l (ix2 p q) = if lab l p = lab l q then d2 (tab x) (tab x) p q else ZERO := by
  rw [val_main_v19_apply, same_apply, d2_apply, val_main_call0_v1_apply, val_main_call0_v0_apply, val_main_cst_2_apply,
    select_cmpi_eq]
  rfl

/-- The second selection keeps `d2` on the pairs of different labels. -/
theorem keep_diff_apply (x : XTy) (l : LTy) (p q : Fin 8192) :
    val_main_v21 (F := Ideal) x l (ix2 p q) = if lab l p = lab l q then ZERO else d2 (tab x) (tab x) p q := by
  rw [val_main_v21_apply, same_apply, d2_apply, val_main_call1_v1_apply, val_main_call1_v0_apply, val_main_cst_4_apply,
    select_cmpi_eq]
  rfl

/-- The sum of the first selection over the whole square. -/
theorem sameSum_apply (x : XTy) (l : LTy) (i : S_.Idx) :
    val_main_v20 (F := Ideal) x l i = sameSum (tab x) (tab x) (lab l) (lab l) := by
  rw [val_main_v20_apply, val_main_cst_3_apply, Ideal.ofBits_def, Ideal.ofBits_zero_f32, zero_add, sum_idx2]
  unfold sameSum
  exact Finset.sum_congr rfl fun p _ => Finset.sum_congr rfl fun q _ => keep_same_apply x l p q

/-- The sum of the second selection over the whole square. -/
theorem diffSum_apply (x : XTy) (l : LTy) (i : S_.Idx) :
    val_main_v22 (F := Ideal) x l i = diffSum (tab x) (tab x) (lab l) (lab l) := by
  rw [val_main_v22_apply, val_main_cst_5_apply, Ideal.ofBits_def, Ideal.ofBits_zero_f32, zero_add, sum_idx2]
  unfold diffSum
  exact Finset.sum_congr rfl fun p _ => Finset.sum_congr rfl fun q _ => keep_diff_apply x l p q

/-- THE RESULT: the program's last stage is the loss of the two sums, at its one index. -/
theorem result_eq (x : (⟨Cert.ReferenceIdeal.S8192x128, .f32⟩ : BufTy).Contents (Elt Ideal))
    (l : (⟨Cert.ReferenceIdeal.S8192, .i32⟩ : BufTy).Contents (Elt Ideal)) :
    Cert.ReferenceIdeal.Read.val_main_v27 (F := Ideal) x l
      = fun _ => loss (sameSum (x : Tab 8192) (x : Tab 8192) (fun p : Fin 8192 => l (ix1 p)) (fun p : Fin 8192 => l (ix1 p)))
          (diffSum (x : Tab 8192) (x : Tab 8192) (fun p : Fin 8192 => l (ix1 p)) (fun p : Fin 8192 => l (ix1 p))) := by
  funext i
  rw [val_main_v27_apply, val_main_v24_apply, val_main_v26_apply, val_main_v23_apply, val_main_v25_apply,
    val_main_cst_6_apply, val_main_cst_7_apply, val_main_cst_8_apply, val_main_cst_9_apply, sameSum_apply, diffSum_apply]
  rfl

open Idealize.ShloMosaic.TcCoe Idealize.SL.Sem Idealize.ShloMosaic.StableHlo in
/-- The same for the term a run of the program leaves in its result buffer: the 43 operations composed, applied to the
    two argument arrays of a memory `m` on device `c`. -/
theorem run_result (m : (ℓ : Loc Cert.ReferenceIdeal.nD Cert.ReferenceIdeal.τ Cert.ReferenceIdeal.sig) → Buf (Elt Ideal) ℓ)
    (c : Dev Cert.ReferenceIdeal.nD) :
    addf (F := Ideal) (Host.divf (mulf (constant S_ .f32 0xBF000000#32) (Host.reduceAdd (select (cmpi .eq (broadcastInDim S8192x8192 ![0, 1] bcast_S8192x1_S8192x8192_0_1 (broadcastInDim S8192x1 ![0] bcast_S8192_S8192x1_0 (m ((c.tc : Thread nD τ).loc main_arg1)))) (broadcastInDim S8192x8192 ![0, 1] bcast_S1x8192_S8192x8192_0_1 (broadcastInDim S1x8192 ![1] bcast_S8192_S1x8192_1 (m ((c.tc : Thread nD τ).loc main_arg1))))) (maximumf (subf (addf (broadcastInDim S8192x8192 ![0, 1] bcast_S8192x1_S8192x8192_0_1 (broadcastInDim S8192x1 ![0] bcast_S8192_S8192x1_0 (Host.reduceAdd (mulf (m ((c.tc : Thread nD τ).loc main_arg0)) (m ((c.tc : Thread nD τ).loc main_arg0))) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf (m ((c.tc : Thread nD τ).loc main_arg0)) (m ((c.tc : Thread nD τ).loc main_arg0))) (constant S_ .f32 0x00000000#32) reducesTo_S8192x128_S8192_d1 h_S_)))) (mulf (broadcastInDim S8192x8192 ![] bcast_S_S8192x8192 (constant S_ .f32 0x40000000#32)) (Host.dotGeneral (φ₁ := .f32) (φ₂ := .f32) dot_S8192x128_S128x8192_S8192x8192_1_0_0_1_n_n none (m ((c.tc : Thread nD τ).loc main_arg0)) (transpose S128x8192 [1, 0] (m ((c.tc : Thread nD τ).loc main_arg0)) transposes_S8192x128_S128x8192_1_0)))) (broadcastInDim S8192x8192 ![] bcast_S_S8192x8192 (constant S_ .f32 0x00000000#32))) (broadcastInDim S8192x8192 ![] bcast_S_S8192x8192 (id (constant S_ .f32 0x00000000#32)))) (constant S_ .f32 0x00000000#32) reducesTo_S8192x8192_S_d0_1 h_S_)) (constant S_ .f32 0x3DA3D70A#32)) (Host.divf (mulf (constant S_ .f32 0x3F000000#32) (Host.reduceAdd (select (cmpi .eq (broadcastInDim S8192x8192 ![0, 1] bcast_S8192x1_S8192x8192_0_1 (broadcastInDim S8192x1 ![0] bcast_S8192_S8192x1_0 (m ((c.tc : Thread nD τ).loc main_arg1)))) (broadcastInDim S8192x8192 ![0, 1] bcast_S1x8192_S8192x8192_0_1 (broadcastInDim S1x8192 ![1] bcast_S8192_S1x8192_1 (m ((c.tc : Thread nD τ).loc main_arg1))))) (broadcastInDim S8192x8192 ![] bcast_S_S8192x8192 (id (constant S_ .f32 0x00000000#32))) (maximumf (subf (addf (broadcastInDim S8192x8192 ![0, 1] bcast_S8192x1_S8192x8192_0_1 (broadcastInDim S8192x1 ![0] bcast_S8192_S8192x1_0 (Host.reduceAdd (mulf (m ((c.tc : Thread nD τ).loc main_arg0)) (m ((c.tc : Thread nD τ).loc main_arg0))) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf (m ((c.tc : Thread nD τ).loc main_arg0)) (m ((c.tc : Thread nD τ).loc main_arg0))) (constant S_ .f32 0x00000000#32) reducesTo_S8192x128_S8192_d1 h_S_)))) (mulf (broadcastInDim S8192x8192 ![] bcast_S_S8192x8192 (constant S_ .f32 0x40000000#32)) (Host.dotGeneral (φ₁ := .f32) (φ₂ := .f32) dot_S8192x128_S128x8192_S8192x8192_1_0_0_1_n_n none (m ((c.tc : Thread nD τ).loc main_arg0)) (transpose S128x8192 [1, 0] (m ((c.tc : Thread nD τ).loc main_arg0)) transposes_S8192x128_S128x8192_1_0)))) (broadcastInDim S8192x8192 ![] bcast_S_S8192x8192 (constant S_ .f32 0x00000000#32)))) (constant S_ .f32 0x00000000#32) reducesTo_S8192x8192_S_d0_1 h_S_)) (constant S_ .f32 0x40000000#32))
      = fun _ => loss
          (sameSum (m ((c.tc : Thread nD τ).loc main_arg0) : Tab 8192) (m ((c.tc : Thread nD τ).loc main_arg0) : Tab 8192)
            (fun p : Fin 8192 => m ((c.tc : Thread nD τ).loc main_arg1) (ix1 p))
            (fun p : Fin 8192 => m ((c.tc : Thread nD τ).loc main_arg1) (ix1 p)))
          (diffSum (m ((c.tc : Thread nD τ).loc main_arg0) : Tab 8192) (m ((c.tc : Thread nD τ).loc main_arg0) : Tab 8192)
            (fun p : Fin 8192 => m ((c.tc : Thread nD τ).loc main_arg1) (ix1 p))
            (fun p : Fin 8192 => m ((c.tc : Thread nD τ).loc main_arg1) (ix1 p))) :=
  (val_main_v27_eq (F := Ideal) _ _).trans (result_eq _ _)

end Cert.Metric.Ref

end
-- ==== Proof.Finite.lean ====
/-
  The precondition "every entry of the table is finite" read back as "every entry is a real number".

  The predicate compares `|x|` with the single-precision word of `+∞` at every entry and takes the conjunction of all
  the comparisons. The conjunction being true, each comparison is: `max x (−x) < ⊤` at every entry. An extended real with
  `x < ⊤` and `−x < ⊤` is neither infinity, hence a real.
-/
import proofs.«166508_j35665408426430_1_alg».proof.Proof.Spec
import proofs.«166508_j35665408426430_1_alg».proof.Pre_finite_inputs
import Idealize.ShloMosaic.Lib.ReduceAll

noncomputable section

namespace Cert.Metric

open Idealize.ShloMosaic Idealize.ShloMosaic.ValueIdx

/-- The scalar shape has one index. -/
instance subsingleton_scalar_idx : Subsingleton Cert.Pre_finite_inputs.S_.Idx :=
  ⟨fun a b => funext fun d => d.elim0⟩

/-- The single-precision word `0x7F800000` is `+∞`. -/
theorem ofBits_inf_f32 : Ideal.ofBits .f32 0x7F800000#32 = (⊤ : EReal) := by
  simp [Ideal.ofBits, Ideal.ieee]

/-- An extended real whose absolute value `max v (−v)` is below `⊤` is a real. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

theorem allReal_of_pre [Cert.Pre_finite_inputs.Facts] (x : FVec Ideal Cert.Pre_finite_inputs.S8192x128 .f32)
    (l : IVec Cert.Pre_finite_inputs.S8192 32)
    (h : Cert.Pre_finite_inputs.fn (F := Ideal) x l = fun _ => 1#1) : AllReal (x : Tab 8192) := by
  intro i
  have h0 := congrFun h ValueIdx.ix0
  dsimp only [Cert.Pre_finite_inputs.fn] at h0
  have e := Host.reduce_andi_all _ _ _ _ _ h0 i
  have e' : Ideal.cmp .olt (max (x i) (-(x i))) (Ideal.ofBits .f32 0x7F800000#32) = 1#1 := e
  rw [ofBits_inf_f32] at e'
  refine real_of_abs_lt_top (x i) ?_
  by_contra hn
  simp [Ideal.cmp, hn] at e'

end Cert.Metric

end
-- ==== Proof.lean ====
/-
  The five claims, assembled.

  Both programs compute, on the extended reals, the same scalar: with `x` the 8192 × 128 table of outputs and `lab` the
  8192 labels, the loss `(−½·S)/c + (½·D)/2` of the sum `S` of clamped squared distances `max (|u|² + |v|² − 2 u·v) 0`
  over the pairs of rows with equal labels and the sum `D` over the pairs with different labels (`c` the word nearest
  0.08, the same in both).  The reference forms the 8192 × 8192 distance matrix and the two masked sums at once.  The
  kernel walks an 8 × 8 grid of 1024 × 1024 blocks, adds each block's equal-label sum into one cell of a two-cell
  accumulator and the block's total less that sum into the other, and at the last point forms the loss from the two
  cells.  Regrouping the sixty-four block sums into the sums over all pairs needs only commutativity and associativity
  of addition; that a block's total less its equal-label sum is its different-label sum needs every entry to be a real
  number, which is what the precondition states.

  The frames: each kernel program runs as a reshape of the labels twice, the kernel region, a reshape of the result;
  the first argument array, which two windows of the region read, is held by each at a half share and joined again at
  the exit, so both arguments end as launched.  The reference's frame is its run with the result dropped.  The
  idealized kernel program is the kernel program's own text read at the ideal instance: nothing was rewritten, and
  `preserves` asks nothing.
-/
import proofs.«166508_j35665408426430_1_alg».proof.Defs
import proofs.«166508_j35665408426430_1_alg».proof.Proof.Gen.Kernel
import proofs.«166508_j35665408426430_1_alg».proof.Proof.Gen.KernelIdeal
import proofs.«166508_j35665408426430_1_alg».proof.Proof.Gen.ReferenceIdeal
import proofs.«166508_j35665408426430_1_alg».proof.Proof.Gen.Pre_finite_inputs
import proofs.«166508_j35665408426430_1_alg».proof.Proof.Gen.ReferenceIdeal.Run
import proofs.«166508_j35665408426430_1_alg».proof.Proof.Gen.ReferenceIdeal.Read
import proofs.«166508_j35665408426430_1_alg».proof.Proof.K.Seg
import proofs.«166508_j35665408426430_1_alg».proof.Proof.KI.Value
import proofs.«166508_j35665408426430_1_alg».proof.Proof.RefValue
import proofs.«166508_j35665408426430_1_alg».proof.Proof.Finite
import Idealize.ShloMosaic.Adequacy
import Idealize.ShloMosaic.Init

noncomputable section

namespace Cert.Proof

open Idealize.ShloMosaic Idealize.ShloMosaic.TcCoe Idealize.SL.Sem Cert.Metric Idealize.ShloMosaic.ValueIdx

/-- The word-level kernel program runs, and its two argument arrays end as launched. -/
theorem frame_k : Cert.frame_Kernel := fun m ρ _ =>
  (θ_run Cert.Kernel.defs _ _).mono (fun _ h c => (h c).2) (Cert.Kernel.Hand.run_main (F := Bits) m ρ)

/-- So does the same text read at the ideal instance. -/
theorem frame_ki : Cert.frame_KernelIdeal := fun m ρ _ =>
  (θ_run Cert.KernelIdeal.defs _ _).mono (fun _ h c => (h c).2) (Cert.KernelIdeal.Hand.run_main (F := Ideal) m ρ)

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the ideal instance. -/
theorem preserves : Cert.preserves_Kernel_KernelIdeal := trivial

/-- From memories agreeing on the two arguments both programs end with the loss of the two sums over all pairs of
    rows: the kernel by its accumulation over the grid (every entry of the table being real, by the precondition),
    the reference by its run read one operation at a time. -/
theorem algebraic : Cert.algebraic_KernelIdeal_ReferenceIdeal := by
  intro m ρ m' ρ' hpre hagree
  refine ⟨fun c => fun _ => loss
      (sameSum (Cert.KernelIdeal.Hand.xT m c) (Cert.KernelIdeal.Hand.xT m c) (Cert.KernelIdeal.Hand.lab m c) (Cert.KernelIdeal.Hand.lab m c))
      (diffSum (Cert.KernelIdeal.Hand.xT m c) (Cert.KernelIdeal.Hand.xT m c) (Cert.KernelIdeal.Hand.lab m c) (Cert.KernelIdeal.Hand.lab m c)), ?_, ?_⟩
  · exact (θ_run Cert.KernelIdeal.defs _ _).mono
      (fun _ h c => ⟨(h c).1.trans (Cert.KernelIdeal.Hand.kernel_value m ρ c (allReal_of_pre _ _ (hpre c))), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.Metric.Ref.run_result m' c, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
